-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S3x8192x8192 : Shape := ⟨3, ![3, 8192, 8192]⟩
abbrev S3x256x256 : Shape := ⟨3, ![3, 256, 256]⟩
abbrev S3x256 : Shape := ⟨2, ![3, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S3x8192x8192 : S_.BroadcastsInDim S3x8192x8192 (![] : Fin 0 → Fin S3x8192x8192.rank)
  reducesTo_S3x8192x8192_S_d0_1_2 : S3x8192x8192.ReducesTo [0, 1, 2] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  main_v18

def fn {F : FTy → Type} [FloatOps F] (main_arg0 : FVec F S8192x256 .f32) (main_arg1 : FVec F S3x8192x8192 .f32) (main_arg2 : FVec F S3x256x256 .f32) (main_arg3 : FVec F S3x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S3x8192x8192 .f32 := Host.absf main_arg1
  let main_cst_0 : FVec F S_ .f32 := constant S_ .f32 0x7F800000#32
  let main_v5 : FVec F S3x8192x8192 .f32 := broadcastInDim S3x8192x8192 ![] bcast_S_S3x8192x8192 main_cst_0
  let main_v6 : IVec S3x8192x8192 1 := cmpf .olt main_v4 main_v5
  let main_c_1 : IVec S_ 1 := constantI S_ 1 1#1
  let main_v7 : IVec S_ 1 := (fun x v => Host.reduce IntOp.andi x v reducesTo_S3x8192x8192_S_d0_1_2 h_S_) main_v6 main_c_1
  let main_v8 : IVec S_ 1 := andi main_v3 main_v7
  let main_v9 : FVec F S3x256x256 .f32 := Host.absf main_arg2
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg3
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_v13 main_v16
-- ==== Kernel.lean ====
abbrev S8192x256 : Shape := ⟨2, ![8192, 256]⟩
abbrev S3x8192x8192 : Shape := ⟨3, ![3, 8192, 8192]⟩
abbrev S3x256x256 : Shape := ⟨3, ![3, 256, 256]⟩
abbrev S3x256 : Shape := ⟨2, ![3, 256]⟩
abbrev S3x512x1024 : Shape := ⟨3, ![3, 512, 1024]⟩
abbrev S512x256 : Shape := ⟨2, ![512, 256]⟩
abbrev S3x512x256 : Shape := ⟨3, ![3, 512, 256]⟩
abbrev S1024x256 : Shape := ⟨2, ![1024, 256]⟩
abbrev S1x512x1024 : Shape := ⟨3, ![1, 512, 1024]⟩
abbrev S512x1024 : Shape := ⟨2, ![512, 1024]⟩
abbrev S1x512x256 : Shape := ⟨3, ![1, 512, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 7
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S3x8192x8192, .f32⟩
  | .hbm, ⟨2, _⟩ => ⟨S3x256x256, .f32⟩
  | .hbm, ⟨3, _⟩ => ⟨S3x256, .f32⟩
  | .hbm, ⟨4, _⟩ => ⟨S3x256x256, .f32⟩
  | .hbm, ⟨5, _⟩ => ⟨S3x256x256, .bf16⟩
  | .hbm, ⟨6, _⟩ => ⟨S8192x256, .f32⟩
  | .local _ .vmem, ⟨0, _⟩ => ⟨S3x512x1024, .f32⟩
  | .local _ .vmem, ⟨1, _⟩ => ⟨S3x512x1024, .f32⟩
  | .local _ .vmem, ⟨2, _⟩ => ⟨S8192x256, .f32⟩
  | .local _ .vmem, ⟨3, _⟩ => ⟨S3x256x256, .bf16⟩
  | .local _ .vmem, ⟨4, _⟩ => ⟨S3x256, .f32⟩
  | .local _ .vmem, ⟨5, _⟩ => ⟨S512x256, .f32⟩
  | .local _ .vmem, ⟨6, _⟩ => ⟨S512x256, .f32⟩
  | .local _ .vmem, ⟨7, _⟩ => ⟨S3x512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_28 : BitVec 32 := 0#32
  let v40 : BitVec 1 := Scalar.cmpi .ne v39 c0_i32_28
  v40

def k0_mult2 (i : grid0.Coords) : BitVec 32 :=
  let arg0 : BitVec 32 := BitVec.ofNat 32 (i 0).val
  let c512_i32 : BitVec 32 := 512#32
  let v47 : BitVec 32 := Scalar.muli arg0 c512_i32
  v47
def k0_off2 (i : grid0.Coords) : Fin 2 → Nat :=
  let arg0 : BitVec 32 := BitVec.ofNat 32 (i 0).val
  let c512_i32 : BitVec 32 := 512#32
  let v47 : BitVec 32 := Scalar.muli arg0 c512_i32
  let v48 : BitVec 32 := v47
  let v49 : Index := Scalar.indexCast v48
  let c0_38 : Index := 0#32
  ![v49.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S3x256x256_S3x256x256_0_2_1 : S3x256x256.Transposes [0, 2, 1] S3x256x256
  bitsLt_bf16_f32 : FTy.bits .bf16 < FTy.bits .f32
  inb_S3x512x256_S3x512x256_0_0_0 : ∀ a, (![0, 0, 0] : Fin 3 → Nat) a + S3x512x256.size a ≤ S3x512x256.size a
  h_S3x512x256 : 0 < S3x512x256.numel
  shapeCasts_S3x512x256_S3x512x256 : S3x512x256.ShapeCasts S3x512x256
  h_S1024x256 : 0 < S1024x256.numel
  inb_S3x512x1024_S1x512x1024_0_0_0 : ∀ a, (![0, 0, 0] : Fin 3 → Nat) a + S1x512x1024.size a ≤ S3x512x1024.size a
  h_S1x512x1024 : 0 < S1x512x1024.numel
  shapeCasts_S1x512x1024_S512x1024 : S1x512x1024.ShapeCasts S512x1024
  inb_S3x512x256_S1x512x256_0_0_0 : ∀ a, (![0, 0, 0] : Fin 3 → Nat) a + S1x512x256.size a ≤ S3x512x256.size a
  h_S1x512x256 : 0 < S1x512x256.numel
  shapeCasts_S1x512x256_S512x256 : S1x512x256.ShapeCasts S512x256
  shapeCasts_S512x256_S1x512x256 : S512x256.ShapeCasts S1x512x256
  inb_S3x512x1024_S1x512x1024_1_0_0 : ∀ a, (![1, 0, 0] : Fin 3 → Nat) a + S1x512x1024.size a ≤ S3x512x1024.size a
  inb_S3x512x256_S1x512x256_1_0_0 : ∀ a, (![1, 0, 0] : Fin 3 → Nat) a + S1x512x256.size a ≤ S3x512x256.size a
  inb_S3x512x1024_S1x512x1024_2_0_0 : ∀ a, (![2, 0, 0] : Fin 3 → Nat) a + S1x512x1024.size a ≤ S3x512x1024.size a
  inb_S3x512x256_S1x512x256_2_0_0 : ∀ a, (![2, 0, 0] : Fin 3 → Nat) a + S1x512x256.size a ≤ S3x512x256.size a
  h_S512x256 : 0 < S512x256.numel
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_1_0_0 : ∀ a, (![1, 0, 0] : Fin 3 → Nat) a + S1x256x256.size a ≤ S3x256x256.size a
  inb_S3x256x256_S1x256x256_2_0_0 : ∀ a, (![2, 0, 0] : Fin 3 → Nat) a + S1x256x256.size a ≤ S3x256x256.size a
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S3x256_S1x256_1_0 : ∀ a, (![1, 0] : Fin 2 → Nat) a + S1x256.size a ≤ S3x256.size a
  inb_S3x256_S1x256_2_0 : ∀ a, (![2, 0] : Fin 2 → Nat) a + S1x256.size a ≤ S3x256.size a
  inb_S512x256_S512x256_0_0 : ∀ a, (![0, 0] : Fin 2 → Nat) a + S512x256.size a ≤ S512x256.size a
  dot_S512x1024_S1024x256_S512x256_1_0_0_1_n_n_wf : DotDims.WF S512x1024 S1024x256 S512x256 [1] [0] [0] [1] [] []
  dot_S512x256_S256x256_S512x256_1_0_0_1_n_n_wf : DotDims.WF S512x256 S256x256 S512x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  k0_mult2_dvd : ∀ i : grid0.Coords, ∀ (k0_h2 : k0_cond2 i = 1#1), 512 ∣ (k0_mult2 i).toNat
  k0_off2_inb : ∀ i : grid0.Coords, ∀ (k0_h2 : k0_cond2 i = 1#1), ∀ a, (k0_off2 i) a + S512x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512x1024.size a ≤ S3x8192x8192.size a
  hwx0_0 : ∀ i : grid0.Coords, EltTy.bits .f32 = 32 ∨ (Rect.block (s := S3x8192x8192) S3x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x256x256.size a
  hwx0_2 : ∀ i : grid0.Coords, EltTy.bits .bf16 = 32 ∨ (Rect.block (s := S3x256x256) S3x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256.size a ≤ S3x256.size a
  hwx0_3 : ∀ i : grid0.Coords, EltTy.bits .f32 = 32 ∨ (Rect.block (s := S3x256) S3x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .f32 = 32 ∨ (Rect.block (s := S8192x256) S512x256.size (cc0_transform_4 i) (hinb0_4 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S3x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S3x8192x8192 : Shape := ⟨3, ![3, 8192, 8192]⟩
abbrev S3x256x256 : Shape := ⟨3, ![3, 256, 256]⟩
abbrev S3x256 : Shape := ⟨2, ![3, 256]⟩
abbrev S3x8192x256 : Shape := ⟨3, ![3, 8192, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x8192x256 : Shape := ⟨3, ![1, 8192, 256]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S3x8192x8192, .f32⟩
  | .hbm, ⟨2, _⟩ => ⟨S3x256x256, .f32⟩
  | .hbm, ⟨3, _⟩ => ⟨S3x256, .f32⟩
  | .hbm, ⟨4, _⟩ => ⟨S3x8192x256, .f32⟩
  | .hbm, ⟨5, _⟩ => ⟨S1x256x256, .f32⟩
  | .hbm, ⟨6, _⟩ => ⟨S256x256, .f32⟩
  | .hbm, ⟨7, _⟩ => ⟨S256x256, .f32⟩
  | .hbm, ⟨8, _⟩ => ⟨S8192x256, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S1x8192x256, .f32⟩
  | .hbm, ⟨15, _⟩ => ⟨S8192x256, .f32⟩
  | .hbm, ⟨16, _⟩ => ⟨S1x8192x256, .f32⟩
  | .hbm, ⟨17, _⟩ => ⟨S8192x256, .f32⟩
  | .hbm, ⟨18, _⟩ => ⟨S1x8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S1x256x256, .f32⟩
  | .hbm, ⟨23, _⟩ => ⟨S256x256, .f32⟩
  | .hbm, ⟨24, _⟩ => ⟨S256x256, .f32⟩
  | .hbm, ⟨25, _⟩ => ⟨S8192x256, .f32⟩
  | .hbm, ⟨26, _⟩ => ⟨S8192x256, .f32⟩
  | .hbm, ⟨27, _⟩ => ⟨S1x256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S1x8192x256, .f32⟩
  | .hbm, ⟨36, _⟩ => ⟨S8192x256, .f32⟩
  | .hbm, ⟨37, _⟩ => ⟨S1x8192x256, .f32⟩
  | .hbm, ⟨38, _⟩ => ⟨S8192x256, .f32⟩
  | .hbm, ⟨39, _⟩ => ⟨S8192x256, .f32⟩
  | .hbm, ⟨40, _⟩ => ⟨S1x8192x256, .f32⟩
  | .hbm, ⟨41, _⟩ => ⟨S8192x256, .f32⟩
  | .hbm, ⟨42, _⟩ => ⟨S1x8192x256, .f32⟩
  | .hbm, ⟨43, _⟩ => ⟨S8192x256, .f32⟩
  | .hbm, ⟨44, _⟩ => ⟨S8192x256, .f32⟩
  | .hbm, ⟨45, _⟩ => ⟨S1x8192x256, .f32⟩
  | .hbm, ⟨46, _⟩ => ⟨S8192x256, .f32⟩
  | .hbm, ⟨47, _⟩ => ⟨S1x8192x256, .f32⟩
  | .hbm, ⟨48, _⟩ => ⟨S8192x256, .f32⟩
  | .hbm, ⟨49, _⟩ => ⟨S8192x256, .f32⟩
  | .hbm, ⟨50, _⟩ => ⟨S1x8192x256, .f32⟩
  | .hbm, ⟨51, _⟩ => ⟨S8192x256, .f32⟩
  | .hbm, ⟨52, _⟩ => ⟨S1x8192x256, .f32⟩
  | .hbm, ⟨53, _⟩ => ⟨S8192x256, .f32⟩
  | .hbm, ⟨54, _⟩ => ⟨S8192x256, .f32⟩
  | .hbm, ⟨55, _⟩ => ⟨S1x8192x256, .f32⟩
  | .hbm, ⟨56, _⟩ => ⟨S8192x256, .f32⟩
  | .hbm, ⟨57, _⟩ => ⟨S1x8192x256, .f32⟩
  | .hbm, ⟨58, _⟩ => ⟨S8192x256, .f32⟩
  | .hbm, ⟨59, _⟩ => ⟨S8192x256, .f32⟩
  | .hbm, ⟨60, _⟩ => ⟨S1x8192x256, .f32⟩
  | .hbm, ⟨61, _⟩ => ⟨S8192x256, .f32⟩
  | .hbm, ⟨62, _⟩ => ⟨S1x8192x256, .f32⟩
  | .hbm, ⟨63, _⟩ => ⟨S8192x256, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S1x256x256, .f32⟩
  | .hbm, ⟨71, _⟩ => ⟨S256x256, .f32⟩
  | .hbm, ⟨72, _⟩ => ⟨S256x256, .f32⟩
  | .hbm, ⟨73, _⟩ => ⟨S8192x256, .f32⟩
  | .hbm, ⟨74, _⟩ => ⟨S8192x256, .f32⟩
  | .hbm, ⟨75, _⟩ => ⟨S1x256, .f32⟩
  | .hbm, ⟨76, _⟩ => ⟨S256, .f32⟩
  | .hbm, ⟨77, _⟩ => ⟨S_, .f32⟩
  | .hbm, ⟨78, _⟩ => ⟨S256, .f32⟩
  | .hbm, ⟨79, _⟩ => ⟨S256, .f32⟩
  | .hbm, ⟨80, _⟩ => ⟨S1x256, .f32⟩
  | .hbm, ⟨81, _⟩ => ⟨S8192x256, .f32⟩
  | .hbm, ⟨82, _⟩ => ⟨S8192x256, .f32⟩
  | .hbm, ⟨83, _⟩ => ⟨S_, .f32⟩
  | .hbm, ⟨84, _⟩ => ⟨S8192x256, .f32⟩
  | .hbm, ⟨85, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_cst_0 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_call0_cst : Ref sig .tc := ⟨.hbm, 83, rfl⟩
abbrev main_call0_v0 : Ref sig .tc := ⟨.hbm, 84, rfl⟩
abbrev main_v77 : Ref sig .tc := ⟨.hbm, 85, rfl⟩

abbrev nD : Nat := 1
abbrev τ : Topo := Topo.v7x

variable {F : FTy → Type} [FloatOps F]

class Facts₀ : Prop where
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  slices_S3x8192x256_S1x8192x256_0_0_0 : S3x8192x256.Slices ![0, 0, 0] S1x8192x256
  shapeCasts_S1x8192x256_S8192x256 : S1x8192x256.ShapeCasts S8192x256
  slices_S3x8192x256_S1x8192x256_1_0_0 : S3x8192x256.Slices ![1, 0, 0] S1x8192x256
  slices_S3x8192x256_S1x8192x256_2_0_0 : S3x8192x256.Slices ![2, 0, 0] S1x8192x256
  slices_S3x256x256_S1x256x256_1_0_0 : S3x256x256.Slices ![1, 0, 0] S1x256x256
  slices_S3x256_S1x256_1_0 : S3x256.Slices ![1, 0] S1x256
  bcast_S_S256 : S_.BroadcastsInDim S256 (![] : Fin 0 → Fin S256.rank)
  slices_S3x256x256_S1x256x256_2_0_0 : S3x256x256.Slices ![2, 0, 0] S1x256x256
  slices_S3x256_S1x256_2_0 : S3x256.Slices ![2, 0] S1x256
  bcast_S_S8192x256 : S_.BroadcastsInDim S8192x256 (![] : Fin 0 → Fin S8192x256.rank)
  dot_S3x8192x8192_S8192x256_S3x8192x256_2_0_01_1_n_n_wf : DotDims.WF S3x8192x8192 S8192x256 S3x8192x256 [2] [0] [0, 1] [1] [] []
  dot_S8192x256_S256x256_S8192x256_1_0_0_1_n_n_wf : DotDims.WF S8192x256 S256x256 S8192x256 [1] [0] [0] [1] [] []

variable [Facts₀]

def dot_S3x8192x8192_S8192x256_S3x8192x256_2_0_01_1_n_n : DotDims S3x8192x8192 S8192x256 S3x8192x256 where
  lhsContracting := [2]
  rhsContracting := [0]
  lhsNonContracting := [0, 1]
  rhsNonContracting := [1]
  lhsBatch := []
  rhsBatch := []
  wf := dot_S3x8192x8192_S8192x256_S3x8192x256_2_0_01_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Pieces.lean ====
/-
  What one run of the body leaves behind, as functions of what it found.

  The accumulator [3, 512, 256] is stored slab by slab: slab p receives its old contents plus the product of the
  current A block's slab p with the current chunk of X. At a first point of a row of the grid the accumulator is
  first filled with zeros and the three slabs read those zeros back. At a last point the output block is computed
  from the three slabs as just stored.
-/
import proofs.«145899_j26173530702105_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangle of accumulator slab 0, 1, 2. -/
abbrev slab0 : Rect S3x512x256 := Rect.unit ![0, 0, 0] S1x512x256.size Facts₀.inb_S3x512x256_S1x512x256_0_0_0
abbrev slab1 : Rect S3x512x256 := Rect.unit ![1, 0, 0] S1x512x256.size Facts₀.inb_S3x512x256_S1x512x256_1_0_0
abbrev slab2 : Rect S3x512x256 := Rect.unit ![2, 0, 0] S1x512x256.size Facts₀.inb_S3x512x256_S1x512x256_2_0_0

/-- The three slab stores of one accumulation (the last store first): the chunk of X at rows `off`, the three slabs of the
    A block, and the three old slabs. -/
def slabs (off : Fin 2 → Nat) (inb : ∀ a, off a + S1024x256.size a ≤ S8192x256.size a)
    (x0 : Vec F S3x512x1024 .f32) (x1 : Vec F S8192x256 .f32) (acc0 acc1 acc2 : Vec F S1x512x256 .f32) :
    List (View.Piece (Elt F) S3x512x256 .f32) :=
  [⟨slab2, k0_pay1 (k0_pay11 (View.ld x1 (Rect.unit off S1024x256.size inb)))
      (View.ld x0 (Rect.unit ![2, 0, 0] S1x512x1024.size Facts₀.inb_S3x512x1024_S1x512x1024_2_0_0)) acc2⟩,
   ⟨slab1, k0_pay13 (View.ld x1 (Rect.unit off S1024x256.size inb))
      (View.ld x0 (Rect.unit ![1, 0, 0] S1x512x1024.size Facts₀.inb_S3x512x1024_S1x512x1024_1_0_0)) acc1⟩,
   ⟨slab0, k0_pay12 (View.ld x1 (Rect.unit off S1024x256.size inb))
      (View.ld x0 (Rect.unit ![0, 0, 0] S1x512x1024.size Facts₀.inb_S3x512x1024_S1x512x1024_0_0_0)) acc0⟩]

/-- The store that fills the whole accumulator with zeros. -/
abbrev zeroFill : View.Piece (Elt F) S3x512x256 .f32 :=
  ⟨Rect.unit ![0, 0, 0] S3x512x256.size Facts₀.inb_S3x512x256_S3x512x256_0_0_0, k0_pay10⟩

/-- The output block from the accumulator's contents `S`, the rows `off` of X, the transposed weights and the biases. -/
def outBlock (off : Fin 2 → Nat) (inb : ∀ a, off a + S512x256.size a ≤ S8192x256.size a)
    (x1 : Vec F S8192x256 .f32) (x2 : Vec F S3x256x256 .bf16) (x3 : Vec F S3x256 .f32) (S : Vec F S3x512x256 .f32) :
    FVec F S512x256 .f32 :=
  k0_pay2 (k0_pay3 (View.ld S slab0)) (k0_pay4 (View.ld S slab1)) (k0_pay5 (View.ld S slab2))
    (k0_pay6 (View.ld x2 (Rect.unit ![2, 0, 0] S1x256x256.size Facts₀.inb_S3x256x256_S1x256x256_2_0_0)))
    (k0_pay7 (View.ld x1 (Rect.unit off S512x256.size inb))
      (View.ld x2 (Rect.unit ![0, 0, 0] S1x256x256.size Facts₀.inb_S3x256x256_S1x256x256_0_0_0))
      (View.ld x3 (Rect.unit ![0, 0] S1x256.size Facts₀.inb_S3x256_S1x256_0_0)))
    (k0_pay8 (View.ld S slab0) (View.ld S slab1) (View.ld S slab2)
      (View.ld x2 (Rect.unit ![1, 0, 0] S1x256x256.size Facts₀.inb_S3x256x256_S1x256x256_1_0_0)))
    (k0_pay9 (View.ld x3 (Rect.unit ![1, 0] S1x256.size Facts₀.inb_S3x256_S1x256_1_0)))
    (View.ld x3 (Rect.unit ![2, 0] S1x256.size Facts₀.inb_S3x256_S1x256_2_0))

/-- Reading any rectangle back right after the zero fill reads the zeros. -/
theorem readCov_zeroFill {sp : Space} (v : View sig .tc sp S3x512x256 .f32) (r : Rect S3x512x256) :
    v.readCov [zeroFill (F := F)] r.toLoadRect = View.ld k0_pay10 r := by
  rw [View.readCov_eq_canon']
  funext j
  exact congrFun (View.canon_unit_zero hz3 _ _) _

/-- Slab 1 read back after the zero fill and the store of slab 0: still the zeros (the slabs are disjoint). -/
theorem readCov_slab1 {sp : Space} (v : View sig .tc sp S3x512x256 .f32) (w0 : slab0.shape.Idx → Elt F .f32) :
    v.readCov [⟨slab0, w0⟩, zeroFill] slab1.toLoadRect = View.ld k0_pay10 slab1 := by
  have hd : Disjoint slab0.set slab1.toLoadRect.set :=
    Rect.unit_disjoint (s := S3x512x256) (off := ![0, 0, 0]) (size := S1x512x256.size) (off' := ![1, 0, 0]) (size' := S1x512x256.size)
      (0 : Fin 3) (Or.inl (by decide))
  rw [View.readCov_cons_of_disjoint v ⟨slab0, w0⟩ [zeroFill] slab1.toLoadRect hd]
  exact readCov_zeroFill v slab1

/-- Slab 2 read back after the zero fill and the stores of slabs 0 and 1: still the zeros. -/
theorem readCov_slab2 {sp : Space} (v : View sig .tc sp S3x512x256 .f32) (w0 : slab0.shape.Idx → Elt F .f32)
    (w1 : slab1.shape.Idx → Elt F .f32) :
    v.readCov [⟨slab1, w1⟩, ⟨slab0, w0⟩, zeroFill] slab2.toLoadRect = View.ld k0_pay10 slab2 := by
  have hd1 : Disjoint slab1.set slab2.toLoadRect.set :=
    Rect.unit_disjoint (s := S3x512x256) (off := ![1, 0, 0]) (size := S1x512x256.size) (off' := ![2, 0, 0]) (size' := S1x512x256.size)
      (0 : Fin 3) (Or.inl (by decide))
  have hd0 : Disjoint slab0.set slab2.toLoadRect.set :=
    Rect.unit_disjoint (s := S3x512x256) (off := ![0, 0, 0]) (size := S1x512x256.size) (off' := ![2, 0, 0]) (size' := S1x512x256.size)
      (0 : Fin 3) (Or.inl (by decide))
  rw [View.readCov_cons_of_disjoint v ⟨slab1, w1⟩ [⟨slab0, w0⟩, zeroFill] slab2.toLoadRect hd1,
    View.readCov_cons_of_disjoint v ⟨slab0, w0⟩ [zeroFill] slab2.toLoadRect hd0]
  exact readCov_zeroFill v slab2

section
variable (c : Dev nD) (i : grid0.Coords) (a2 : Memref sig .tc .vmem S3x512x1024 .f32) (h2 : a2.IsWhole) (a3 : Memref sig .tc .vmem S8192x256 .f32) (h3 : a3.IsWhole) (a4 : Memref sig .tc .vmem S3x256x256 .bf16) (h4 : a4.IsWhole) (a5 : Memref sig .tc .vmem S3x256 .f32) (h5 : a5.IsWhole) (a6 : Memref sig .tc .vmem S512x256 .f32) (h6 : a6.IsWhole) (a7 : Memref sig .tc .vmem S3x512x256 .f32) (h7 : a7.IsWhole)
variable (x0 : Vec F S3x512x1024 .f32) (x1 : Vec F S8192x256 .f32) (x2 : Vec F S3x256x256 .bf16) (x3 : Vec F S3x256 .f32)

/-- A middle point of a row of the grid: the accumulator becomes the three slab stores over its old contents. -/
theorem sout_B (hc0 : ¬cond0_0 i) (hc1 : ¬cond0_1 i) (xs0 : Vec F S3x512x256 .f32) :
    sout0_B_0 c i a2 h2 a3 h3 a4 h4 a5 h5 a6 h6 a7 h7 hc0 hc1 x0 x1 x2 x3 xs0
      = View.canon (slabs (k0_off1 i) (Facts₀.k0_off1_inb i) x0 x1 (View.ld xs0 slab0) (View.ld xs0 slab1) (View.ld xs0 slab2)) := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_run_names
  simp only [View.readAt_eq_ld, h2.read_unread, h3.read_unread, h7.read_unread]
  rfl

/-- A last point of a row of the grid: the same accumulation, -/
theorem sout_C (hc0 : ¬cond0_0 i) (hc1 : cond0_1 i) (xs0 : Vec F S3x512x256 .f32) :
    sout0_C_0 c i a2 h2 a3 h3 a4 h4 a5 h5 a6 h6 a7 h7 hc0 hc1 x0 x1 x2 x3 xs0
      = View.canon (slabs (k0_off1 i) (Facts₀.k0_off1_inb i) x0 x1 (View.ld xs0 slab0) (View.ld xs0 slab1) (View.ld xs0 slab2)) := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_run_names
  simp only [View.readAt_eq_ld, h2.read_unread, h3.read_unread, h7.read_unread]
  rfl

/-- and the output block computed from the accumulator as that accumulation leaves it. -/
theorem out_C (hc0 : ¬cond0_0 i) (hc1 : cond0_1 i) (xs0 : Vec F S3x512x256 .f32) :
    out0_C_4 c i a2 h2 a3 h3 a4 h4 a5 h5 a6 h6 a7 h7 hc0 hc1 x0 x1 x2 x3 xs0
      = outBlock (k0_off2 i) (Facts₀.k0_off2_inb i hc1) x1 x2 x3
          (View.canon (slabs (k0_off1 i) (Facts₀.k0_off1_inb i) x0 x1 (View.ld xs0 slab0) (View.ld xs0 slab1) (View.ld xs0 slab2))) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_run_names
  rw [View.canon_unit_zero hz2]
  simp only [View.readAt_eq_ld, h2.read_unread, h3.read_unread, h4.read_unread, h5.read_unread, h7.read_unread,
    View.readCov_eq_canon']
  rfl

/-- A first point of a row of the grid: the zero fill, then the three slab stores over the zeros. -/
theorem sout_A (hc0 : cond0_0 i) (hc1 : ¬cond0_1 i) :
    sout0_A_0 c i a2 h2 a3 h3 a4 h4 a5 h5 a6 h6 a7 h7 hc0 hc1 x0 x1 x2 x3
      = View.canon (slabs (k0_off1 i) (Facts₀.k0_off1_inb i) x0 x1 (View.ld k0_pay10 slab0) (View.ld k0_pay10 slab1)
          (View.ld k0_pay10 slab2) ++ [zeroFill]) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_run_names
  simp only [View.readAt_eq_ld, h2.read_unread, h3.read_unread]
  rw [readCov_slab2, readCov_slab1, readCov_zeroFill]
  rfl

end

end Cert.KernelIdeal.Pieces

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.Spec.lean ====
/-
  The function both programs compute, on the extended reals.

  With M_p = A_p · X (three [8192, 256] matrices), S1 = M_0 + M_1 + M_2 and
  S2 = M_0∘M_0 + M_0∘M_1 + M_0∘M_2 + M_1∘M_1 + M_1∘M_2 + M_2∘M_2 (∘ the entrywise product), the layer is

      relu ( X·W_0ᵀ + b_0  +  S1·W_1ᵀ + 3·b_1  +  S2·W_2ᵀ + 6·b_2 ).

  Stated here entry by entry, with the sums over the feature axis and over the node axis written out, and
  with the two arrangements of the final sum that occur: the chain ((((t_0 + b_0) + t_1) + 3b_1) + t_2) + 6b_2
  and the grouping ((t_0 + b_0) + (t_1 + 3b_1)) + (t_2 + 6b_2). Addition on the extended reals is commutative and
  associative (also at the infinities), so the two agree for all inputs; likewise a sum over the 8192 nodes
  is the sum of its eight consecutive chunks of 1024.
-/
import Idealize.ShloMosaic.PureOps.Ideal
import Idealize.ShloMosaic.PureOps.Ideal.Laws
import Idealize.ShloMosaic.Lib.ValueIdx

noncomputable section

open scoped BigOperators

namespace Cert.Volterra

open Idealize.ShloMosaic Idealize.ShloMosaic.ValueIdx

/-- The four arguments' shapes: features X, adjacency powers A, weights W, biases b. -/
abbrev SX : Shape := ⟨2, ![8192, 256]⟩
abbrev SA : Shape := ⟨3, ![3, 8192, 8192]⟩
abbrev SW : Shape := ⟨3, ![3, 256, 256]⟩
abbrev SB : Shape := ⟨2, ![3, 256]⟩

/-- The literals 3, 6 and 0 as the programs spell them. -/
abbrev three : EReal := Ideal.ofBits .f32 0x40400000#32
abbrev six : EReal := Ideal.ofBits .f32 0x40C00000#32
abbrev zero : EReal := Ideal.ofBits .f32 0x00000000#32

section
variable (X : SX.Idx → EReal) (A : SA.Idx → EReal) (W : SW.Idx → EReal) (b : SB.Idx → EReal)

/-- (A_p · X)(n, d): the sum over all 8192 nodes. -/
def prop (p : Fin 3) (n : Fin 8192) (d : Fin 256) : EReal :=
  ∑ k : Fin 8192, A (ix3 p n k) * X (ix2 k d)

/-- The first-order combination at (n, d), from the three propagated values. -/
def ord1 (m0 m1 m2 : EReal) : EReal := m0 + m1 + m2

/-- The second-order combination at (n, d): the six entrywise products, in the programs' order. -/
def ord2 (m0 m1 m2 : EReal) : EReal := m0 * m0 + m0 * m1 + m0 * m2 + m1 * m1 + m1 * m2 + m2 * m2

/-- The three linear terms at (n, e), over given propagated values `m p d` of row n. -/
def lin0 (n : Fin 8192) (e : Fin 256) : EReal := ∑ d : Fin 256, X (ix2 n d) * W (ix3 0 e d)
def lin1 (m : Fin 3 → Fin 256 → EReal) (e : Fin 256) : EReal :=
  ∑ d : Fin 256, ord1 (m 0 d) (m 1 d) (m 2 d) * W (ix3 1 e d)
def lin2 (m : Fin 3 → Fin 256 → EReal) (e : Fin 256) : EReal :=
  ∑ d : Fin 256, ord2 (m 0 d) (m 1 d) (m 2 d) * W (ix3 2 e d)

/-- The layer at (n, e) over given propagated values of row n, the final sum as a chain. -/
def chained (m : Fin 3 → Fin 256 → EReal) (n : Fin 8192) (e : Fin 256) : EReal :=
  max (((((lin0 X W n e + b (ix2 0 e)) + lin1 W m e) + three * b (ix2 1 e)) + lin2 W m e) + six * b (ix2 2 e)) zero

/-- The same with the final sum grouped order by order. -/
def grouped (m : Fin 3 → Fin 256 → EReal) (n : Fin 8192) (e : Fin 256) : EReal :=
  max (((lin0 X W n e + b (ix2 0 e)) + (lin1 W m e + three * b (ix2 1 e))) + (lin2 W m e + six * b (ix2 2 e))) zero

theorem grouped_eq_chained (m : Fin 3 → Fin 256 → EReal) (n : Fin 8192) (e : Fin 256) :
    grouped X W b m n e = chained X W b m n e := by
  unfold grouped chained
  simp only [add_assoc]

/-- THE SPECIFICATION: the layer's output array. -/
def layer : SX.Idx → EReal := fun i => chained X W b (fun p d => prop X A p (i 0) d) (i 0) (i 1)

theorem layer_apply (n : Fin 8192) (e : Fin 256) :
    layer X A W b (ix2 n e) = chained X W b (fun p d => prop X A p n d) n e := rfl

end

/-! ## A sum over the nodes as the sum of its eight chunks -/

/-- Node `1024·s + j` (chunk s, position j), reduced modulo 8192 so that it is defined for every s. -/
def node (s : Nat) (j : Fin 1024) : Fin 8192 := ⟨(1024 * s + j.val) % 8192, Nat.mod_lt _ (by norm_num)⟩

theorem node_val (s : Nat) (hs : s < 8) (j : Fin 1024) : (node s j).val = 1024 * s + j.val := by
  have := j.isLt
  show (1024 * s + j.val) % 8192 = _
  omega

/-- Row `512·q + r` (row block q, position r), reduced modulo 8192 so that it is defined for every q. -/
def row (q : Nat) (r : Fin 512) : Fin 8192 := ⟨(512 * q + r.val) % 8192, Nat.mod_lt _ (by norm_num)⟩

theorem row_val (q : Nat) (hq : q < 16) (r : Fin 512) : (row q r).val = 512 * q + r.val := by
  have := r.isLt
  show (512 * q + r.val) % 8192 = _
  omega

theorem sum_chunks {M : Type*} [AddCommMonoid M] (f : Fin 8192 → M) :
    ∑ k : Fin 8192, f k = ∑ s ∈ Finset.range 8, ∑ j : Fin 1024, f (node s j) := by
  rw [Finset.sum_range, ← (finProdFinEquiv : Fin 8 × Fin 1024 ≃ Fin 8192).sum_comp, Fintype.sum_prod_type]
  refine Finset.sum_congr rfl fun s _ => Finset.sum_congr rfl fun j _ => congrArg f (Fin.ext ?_)
  have hs := s.isLt
  have hj := j.isLt
  show j.val + 1024 * s.val = (1024 * s.val + j.val) % 8192
  omega

end Cert.Volterra

end
-- ==== Proof.Payloads.lean ====
/-
  The body's arithmetic at an index, on the extended reals.

  Two kinds of value are stored by the body. The accumulator slab of adjacency power p gains, at (r, d), the
  product of row r of the current [512, 1024] block of A_p with column d of the current [1024, 256] chunk of X.
  The output block is, at (r, e), the layer's formula over the accumulated slabs, the block's 512 rows of X, the
  transposed weights and the biases. A change of float format is the identity on the extended reals, so the
  conversions to the narrow format on the way into a matrix product do not appear.
-/
import proofs.«145899_j26173530702105_2_alg».proof.Proof.Gen.KernelIdeal.Skeleton
import proofs.«145899_j26173530702105_2_alg».proof.Proof.LibDenseLayers
import proofs.«145899_j26173530702105_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- One accumulation: slab (u, r, d) becomes its old value plus row r of the A block times column d of the X chunk. -/
theorem accum_apply (xc : FVec Ideal S1024x256 .bf16) (a : Vec Ideal S1x512x1024 .f32) (acc : Vec Ideal S1x512x256 .f32)
    (u : Fin 1) (r : Fin 512) (d : Fin 256) :
    k0_pay1 xc a acc (ix3 u r d) = acc (ix3 (0 : Fin 1) r d) + ∑ j : Fin 1024, a (ix3 (0 : Fin 1) r j) * xc (ix2 j d) := by
  unfold k0_pay1
  refine (shapeCast_ab_1ab_apply _ _ u r d).trans ?_
  refine congrArg₂ (· + ·) (shapeCast_1ab_ab_apply _ _ r d) ?_
  refine (DenseLayers.matmul_rowcol_zero_apply _ none _ _ r d).trans ?_
  refine Finset.sum_congr rfl fun j _ => ?_
  exact congrArg (· * xc (ix2 j d)) (shapeCast_1ab_ab_apply _ _ r j)

theorem accum12_apply (x : Vec Ideal S1024x256 .f32) (a : Vec Ideal S1x512x1024 .f32) (acc : Vec Ideal S1x512x256 .f32)
    (u : Fin 1) (r : Fin 512) (d : Fin 256) :
    k0_pay12 x a acc (ix3 u r d) = acc (ix3 (0 : Fin 1) r d) + ∑ j : Fin 1024, a (ix3 (0 : Fin 1) r j) * x (ix2 j d) :=
  accum_apply (k0_pay11 x) a acc u r d

theorem accum13_apply (x : Vec Ideal S1024x256 .f32) (a : Vec Ideal S1x512x1024 .f32) (acc : Vec Ideal S1x512x256 .f32)
    (u : Fin 1) (r : Fin 512) (d : Fin 256) :
    k0_pay13 x a acc (ix3 u r d) = acc (ix3 (0 : Fin 1) r d) + ∑ j : Fin 1024, a (ix3 (0 : Fin 1) r j) * x (ix2 j d) :=
  accum_apply (k0_pay11 x) a acc u r d

/-- The three accumulated slabs as the output step reads them: the leading unit axis dropped. -/
theorem slab_apply (v : Vec Ideal S1x512x256 .f32) (r : Fin 512) (d : Fin 256) :
    k0_pay3 v (ix2 r d) = v (ix3 (0 : Fin 1) r d) := shapeCast_1ab_ab_apply _ _ r d
theorem slab4_apply (v : Vec Ideal S1x512x256 .f32) (r : Fin 512) (d : Fin 256) :
    k0_pay4 v (ix2 r d) = v (ix3 (0 : Fin 1) r d) := shapeCast_1ab_ab_apply _ _ r d
theorem slab5_apply (v : Vec Ideal S1x512x256 .f32) (r : Fin 512) (d : Fin 256) :
    k0_pay5 v (ix2 r d) = v (ix3 (0 : Fin 1) r d) := shapeCast_1ab_ab_apply _ _ r d

/-- A transposed weight matrix as the output step reads it. -/
theorem weight_apply (v : Vec Ideal S1x256x256 .bf16) (d e : Fin 256) :
    k0_pay6 v (ix2 d e) = v (ix3 (0 : Fin 1) d e) := shapeCast_1ab_ab_apply _ _ d e

/-- A bias row (a [1, 256] load) flattened, put back as a row and broadcast over the 512 rows. -/
theorem biasRow_apply (v : FVec Ideal S256 .f32) (r : Fin 512) (e : Fin 256) :
    broadcastTo S512x256 (shapeCast S1x256 v shapeCasts_S256_S1x256) broadcasts_S1x256_S512x256 (ix2 r e) = v (ix1 e) :=
  (broadcastTo_1b_ab_apply _ _ r e).trans (shapeCast_a_1a_apply _ _ (0 : Fin 1) e)

/-- Order 0 at (r, e): row r of the X rows times column e of the transposed weights, plus the bias. -/
theorem order0_apply (x : Vec Ideal S512x256 .f32) (w : Vec Ideal S1x256x256 .bf16) (b : Vec Ideal S1x256 .f32)
    (r : Fin 512) (e : Fin 256) :
    k0_pay7 x w b (ix2 r e) = (∑ d : Fin 256, x (ix2 r d) * w (ix3 (0 : Fin 1) d e)) + b (ix2 (0 : Fin 1) e) := by
  unfold k0_pay7
  refine congrArg₂ (· + ·) ?_ ?_
  · refine (DenseLayers.matmul_rowcol_zero_apply _ none _ _ r e).trans ?_
    refine Finset.sum_congr rfl fun d _ => ?_
    exact congrArg (x (ix2 r d) * ·) (shapeCast_1ab_ab_apply _ _ d e)
  · exact (biasRow_apply _ r e).trans (shapeCast_1a_a_apply _ _ e)

/-- Order 1 at (r, e): the sum of the three slabs, row r, times column e of the transposed weights. -/
theorem order1_apply (m0 m1 m2 : Vec Ideal S1x512x256 .f32) (w : Vec Ideal S1x256x256 .bf16) (r : Fin 512) (e : Fin 256) :
    k0_pay8 m0 m1 m2 w (ix2 r e)
      = ∑ d : Fin 256, Cert.Volterra.ord1 (m0 (ix3 (0 : Fin 1) r d)) (m1 (ix3 (0 : Fin 1) r d)) (m2 (ix3 (0 : Fin 1) r d))
          * w (ix3 (0 : Fin 1) d e) := by
  unfold k0_pay8
  refine (DenseLayers.matmul_rowcol_zero_apply _ none _ _ r e).trans ?_
  refine Finset.sum_congr rfl fun d _ => ?_
  refine congrArg₂ (· * ·) ?_ (shapeCast_1ab_ab_apply _ _ d e)
  exact congrArg₂ (· + ·) (congrArg₂ (· + ·) (slab_apply m0 r d) (slab4_apply m1 r d)) (slab5_apply m2 r d)

/-- Three times the order-1 bias, as a row broadcast over the block. -/
theorem bias1_apply (b : Vec Ideal S1x256 .f32) (r : Fin 512) (e : Fin 256) :
    k0_pay9 b (ix2 r e) = Cert.Volterra.three * b (ix2 (0 : Fin 1) e) := by
  unfold k0_pay9
  refine (biasRow_apply _ r e).trans ?_
  exact congrArg (Cert.Volterra.three * ·) (shapeCast_1a_a_apply _ _ e)

/-- The output block at (r, e): the three orders with their biases, grouped order by order, then the relu. -/
theorem final_apply (v42 v44 v46 : FVec Ideal S512x256 .f32) (v57 : FVec Ideal S256x256 .bf16)
    (v63 v67 v73 : FVec Ideal S512x256 .f32) (v88 : Vec Ideal S1x256 .f32) (r : Fin 512) (e : Fin 256) :
    k0_pay2 v42 v44 v46 v57 v63 v67 v73 v88 (ix2 r e)
      = max ((v63 (ix2 r e) + (v67 (ix2 r e) + v73 (ix2 r e)))
          + ((∑ d : Fin 256, Cert.Volterra.ord2 (v42 (ix2 r d)) (v44 (ix2 r d)) (v46 (ix2 r d)) * v57 (ix2 d e))
              + Cert.Volterra.six * v88 (ix2 (0 : Fin 1) e))) Cert.Volterra.zero := by
  unfold k0_pay2
  refine congrArg₂ max ?_ rfl
  refine congrArg₂ (· + ·) rfl ?_
  refine congrArg₂ (· + ·) ?_ ?_
  · refine (DenseLayers.matmul_rowcol_zero_apply _ none _ _ r e).trans ?_
    exact Finset.sum_congr rfl fun d _ => rfl
  · refine (biasRow_apply _ r e).trans ?_
    exact congrArg (Cert.Volterra.six * ·) (shapeCast_1a_a_apply _ _ e)

end Cert.KernelIdeal.Pay

end
-- ==== Proof.Step.lean ====
/-
  The values one run of the body leaves, at an index, on the extended reals.

  After one accumulation over the chunk of X at rows 1024·s …, slab p of the accumulator holds at (r, d) its
  old value plus ∑_j A_block(p, r, j) · X(1024·s + j, d). The output block at (r, e), computed from an
  accumulator S, the rows 512·q … of X, the transposed weights and the biases, is the layer's formula with the
  final sum grouped order by order.
-/
import proofs.«145899_j26173530702105_2_alg».proof.Proof.Pieces
import proofs.«145899_j26173530702105_2_alg».proof.Proof.Payloads
import proofs.«145899_j26173530702105_2_alg».proof.Proof.Spec
import Idealize.ShloMosaic.Lib.Pipeline.CanonAppend

noncomputable section

open scoped BigOperators

namespace Cert.KernelIdeal.Step

open Cert.KernelIdeal Cert.KernelIdeal.Gen Cert.KernelIdeal.Pieces
open Idealize.ShloMosaic Idealize.ShloMosaic.ValueIdx
open Cert.Volterra (node row three six zero ord1 ord2)

/-! ## Where a slab's element sits in the accumulator, and a block's element in its array -/

theorem slab0_idx (u : Fin 1) (r : Fin 512) (d : Fin 256) : slab0.idx (ix3 u r d) = ix3 (0 : Fin 3) r d :=
  funext fun a => Fin.ext (by
    have hu : u.val = 0 := by omega
    match a with
    | ⟨0, _⟩ => show 0 + 1 * u.val = 0; omega
    | ⟨1, _⟩ => show 0 + 1 * r.val = r.val; omega
    | ⟨2, _⟩ => show 0 + 1 * d.val = d.val; omega)
theorem slab1_idx (u : Fin 1) (r : Fin 512) (d : Fin 256) : slab1.idx (ix3 u r d) = ix3 (1 : Fin 3) r d :=
  funext fun a => Fin.ext (by
    have hu : u.val = 0 := by omega
    match a with
    | ⟨0, _⟩ => show 1 + 1 * u.val = 1; omega
    | ⟨1, _⟩ => show 0 + 1 * r.val = r.val; omega
    | ⟨2, _⟩ => show 0 + 1 * d.val = d.val; omega)
theorem slab2_idx (u : Fin 1) (r : Fin 512) (d : Fin 256) : slab2.idx (ix3 u r d) = ix3 (2 : Fin 3) r d :=
  funext fun a => Fin.ext (by
    have hu : u.val = 0 := by omega
    match a with
    | ⟨0, _⟩ => show 2 + 1 * u.val = 2; omega
    | ⟨1, _⟩ => show 0 + 1 * r.val = r.val; omega
    | ⟨2, _⟩ => show 0 + 1 * d.val = d.val; omega)

theorem not_mem_slab2_of_lt (p : Fin 3) (hp : p.val < 2) (r : Fin 512) (d : Fin 256) : ix3 p r d ∉ slab2.set := fun h => by
  have := (Rect.mem_set_unit.mp h) ⟨0, by decide⟩
  have h2 : (2 : Nat) ≤ p.val := this.1
  omega
theorem not_mem_slab1_of_lt (p : Fin 3) (hp : p.val < 1) (r : Fin 512) (d : Fin 256) : ix3 p r d ∉ slab1.set := fun h => by
  have := (Rect.mem_set_unit.mp h) ⟨0, by decide⟩
  have h2 : (1 : Nat) ≤ p.val := this.1
  omega

/-! ## One accumulation at an index -/

/-- Three stores, one per slab (the last first), over any earlier stores: at (p, r, d) the canon is store p's value at (0, r, d). -/
theorem canon3_apply (w0 w1 w2 : Vec Ideal S1x512x256 .f32) (L' : List (View.Piece (Elt Ideal) S3x512x256 .f32))
    (p : Fin 3) (r : Fin 512) (d : Fin 256) :
    View.canon ((⟨slab2, w2⟩ : View.Piece (Elt Ideal) S3x512x256 .f32) :: ⟨slab1, w1⟩ :: ⟨slab0, w0⟩ :: L') (ix3 p r d)
      = (match p with | ⟨0, _⟩ => w0 | ⟨1, _⟩ => w1 | ⟨_ + 2, _⟩ => w2) (ix3 (0 : Fin 1) r d) := by
  match p with
  | ⟨0, _⟩ =>
    show View.canon _ (ix3 (0 : Fin 3) r d) = w0 _
    rw [View.canon_cons_of_not_mem ⟨slab2, w2⟩ _ (not_mem_slab2_of_lt 0 (by decide) r d),
      View.canon_cons_of_not_mem ⟨slab1, w1⟩ _ (not_mem_slab1_of_lt 0 (by decide) r d), ← slab0_idx 0 r d]
    exact View.canon_cons_emb slab0 w0 L' (ix3 (0 : Fin 1) r d)
  | ⟨1, _⟩ =>
    show View.canon _ (ix3 (1 : Fin 3) r d) = w1 _
    rw [View.canon_cons_of_not_mem ⟨slab2, w2⟩ _ (not_mem_slab2_of_lt 1 (by decide) r d), ← slab1_idx 0 r d]
    exact View.canon_cons_emb slab1 w1 _ (ix3 (0 : Fin 1) r d)
  | ⟨2, _⟩ =>
    show View.canon _ (ix3 (2 : Fin 3) r d) = w2 _
    rw [← slab2_idx 0 r d]
    exact View.canon_cons_emb slab2 w2 _ (ix3 (0 : Fin 1) r d)

/-- The canon of the three slab stores of one accumulation (whatever stores were made before them) at (p, r, d): the old
    slab's value there plus the product of row r of slab p of the A block with column d of the chunk of X at rows 1024·s …. -/
theorem slabs_apply (off : Fin 2 → Nat) (inb : ∀ a, off a + S1024x256.size a ≤ S8192x256.size a)
    (s : Nat) (hs : s < 8) (hoff : off = ![1024 * s, 0])
    (x0 : Vec Ideal S3x512x1024 .f32) (x1 : Vec Ideal S8192x256 .f32) (acc0 acc1 acc2 : Vec Ideal S1x512x256 .f32)
    (L' : List (View.Piece (Elt Ideal) S3x512x256 .f32)) (p : Fin 3) (r : Fin 512) (d : Fin 256) :
    View.canon (slabs off inb x0 x1 acc0 acc1 acc2 ++ L') (ix3 p r d)
      = (match p with | ⟨0, _⟩ => acc0 | ⟨1, _⟩ => acc1 | ⟨_ + 2, _⟩ => acc2) (ix3 (0 : Fin 1) r d)
          + ∑ j : Fin 1024, x0 (ix3 p r j) * x1 (ix2 (node s j) d) := by
  have hx1 : ∀ j : Fin 1024, View.ld x1 (Rect.unit off S1024x256.size inb) (ix2 j d) = x1 (ix2 (node s j) d) := fun j =>
    congrArg x1 (funext fun a => Fin.ext (by
      have hj := j.isLt
      match a with
      | ⟨0, _⟩ => show off 0 + 1 * j.val = (node s j).val; rw [Cert.Volterra.node_val s hs j, hoff]; show 1024 * s + 1 * j.val = _; omega
      | ⟨1, _⟩ => show off 1 + 1 * d.val = d.val; rw [hoff]; show 0 + 1 * d.val = _; omega))
  have hx0 : ∀ (o : Nat) (q : Fin 3) (hq : q.val = o) (inbq : ∀ a, (![o, 0, 0] : Fin 3 → Nat) a + S1x512x1024.size a ≤ S3x512x1024.size a)
      (j : Fin 1024), View.ld x0 (Rect.unit ![o, 0, 0] S1x512x1024.size inbq) (ix3 (0 : Fin 1) r j) = x0 (ix3 q r j) :=
    fun o q hq inbq j => congrArg x0 (funext fun a => Fin.ext (by
      match a with
      | ⟨0, _⟩ => show o + 1 * 0 = q.val; omega
      | ⟨1, _⟩ => show 0 + 1 * r.val = r.val; omega
      | ⟨2, _⟩ => show 0 + 1 * j.val = j.val; omega))
  refine (canon3_apply _ _ _ L' p r d).trans ?_
  match p with
  | ⟨0, _⟩ =>
    refine (Pay.accum12_apply _ _ _ 0 r d).trans ?_
    exact congrArg (acc0 (ix3 (0 : Fin 1) r d) + ·) (Finset.sum_congr rfl fun j _ => by rw [hx1 j, hx0 0 0 rfl _ j]; rfl)
  | ⟨1, _⟩ =>
    refine (Pay.accum13_apply _ _ _ 0 r d).trans ?_
    exact congrArg (acc1 (ix3 (0 : Fin 1) r d) + ·) (Finset.sum_congr rfl fun j _ => by rw [hx1 j, hx0 1 1 rfl _ j]; rfl)
  | ⟨2, _⟩ =>
    refine (Pay.accum_apply _ _ _ 0 r d).trans ?_
    exact congrArg (acc2 (ix3 (0 : Fin 1) r d) + ·) (Finset.sum_congr rfl fun j _ => by
      rw [hx0 2 2 rfl _ j]; exact congrArg (x0 (ix3 2 r j) * ·) (hx1 j))

/-- The same when the old slabs are read from an accumulator `acc`: its value at (p, r, d) plus the product. -/
theorem slabs_ld_apply (off : Fin 2 → Nat) (inb : ∀ a, off a + S1024x256.size a ≤ S8192x256.size a)
    (s : Nat) (hs : s < 8) (hoff : off = ![1024 * s, 0])
    (x0 : Vec Ideal S3x512x1024 .f32) (x1 : Vec Ideal S8192x256 .f32) (acc : Vec Ideal S3x512x256 .f32)
    (p : Fin 3) (r : Fin 512) (d : Fin 256) :
    View.canon (slabs off inb x0 x1 (View.ld acc slab0) (View.ld acc slab1) (View.ld acc slab2)) (ix3 p r d)
      = acc (ix3 p r d) + ∑ j : Fin 1024, x0 (ix3 p r j) * x1 (ix2 (node s j) d) := by
  refine ((congrArg (fun L => View.canon L (ix3 p r d))
      (List.append_nil (slabs off inb x0 x1 (View.ld acc slab0) (View.ld acc slab1) (View.ld acc slab2))).symm).trans
    (slabs_apply off inb s hs hoff x0 x1 (View.ld acc slab0) (View.ld acc slab1) (View.ld acc slab2) [] p r d)).trans
    (congrArg (· + _) ?_)
  match p with
  | ⟨0, _⟩ => exact congrArg acc (slab0_idx 0 r d)
  | ⟨1, _⟩ => exact congrArg acc (slab1_idx 0 r d)
  | ⟨2, _⟩ => exact congrArg acc (slab2_idx 0 r d)

/-- The block of zeros the first point of a row of the grid fills the accumulator with. -/
theorem zeroFill_apply (y : S3x512x256.Idx) : k0_pay10 (F := Ideal) y = zero := by
  unfold k0_pay10
  exact (congrFun (shapeCast_self _ _) y).trans rfl

/-- The same when the accumulator was just filled with zeros: zero plus the product. -/
theorem slabs_zero_apply (off : Fin 2 → Nat) (inb : ∀ a, off a + S1024x256.size a ≤ S8192x256.size a)
    (s : Nat) (hs : s < 8) (hoff : off = ![1024 * s, 0])
    (x0 : Vec Ideal S3x512x1024 .f32) (x1 : Vec Ideal S8192x256 .f32) (p : Fin 3) (r : Fin 512) (d : Fin 256) :
    View.canon (slabs off inb x0 x1 (View.ld (k0_pay10 (F := Ideal)) slab0) (View.ld (k0_pay10 (F := Ideal)) slab1)
        (View.ld (k0_pay10 (F := Ideal)) slab2) ++ [zeroFill])
        (ix3 p r d)
      = zero + ∑ j : Fin 1024, x0 (ix3 p r j) * x1 (ix2 (node s j) d) := by
  refine (slabs_apply off inb s hs hoff x0 x1 _ _ _ [zeroFill] p r d).trans (congrArg (· + _) ?_)
  match p with
  | ⟨0, _⟩ => exact zeroFill_apply _
  | ⟨1, _⟩ => exact zeroFill_apply _
  | ⟨2, _⟩ => exact zeroFill_apply _

/-! ## The output block at an index -/

/-- The output block at (r, e): over the accumulator `S`, the rows 512·q … of X, the transposed weights `x2` and the
    biases `x3`, the three orders with their biases, grouped order by order, under the maximum with zero. -/
theorem outBlock_apply (off : Fin 2 → Nat) (inb : ∀ a, off a + S512x256.size a ≤ S8192x256.size a)
    (q : Nat) (hq : q < 16) (hoff : off = ![512 * q, 0])
    (x1 : Vec Ideal S8192x256 .f32) (x2 : Vec Ideal S3x256x256 .bf16) (x3 : Vec Ideal S3x256 .f32)
    (S : Vec Ideal S3x512x256 .f32) (r : Fin 512) (e : Fin 256) :
    outBlock off inb x1 x2 x3 S (ix2 r e)
      = max ((((∑ d : Fin 256, x1 (ix2 (row q r) d) * x2 (ix3 (0 : Fin 3) d e)) + x3 (ix2 (0 : Fin 3) e))
              + ((∑ d : Fin 256, ord1 (S (ix3 (0 : Fin 3) r d)) (S (ix3 (1 : Fin 3) r d)) (S (ix3 (2 : Fin 3) r d))
                    * x2 (ix3 (1 : Fin 3) d e)) + three * x3 (ix2 (1 : Fin 3) e)))
            + ((∑ d : Fin 256, ord2 (S (ix3 (0 : Fin 3) r d)) (S (ix3 (1 : Fin 3) r d)) (S (ix3 (2 : Fin 3) r d))
                  * x2 (ix3 (2 : Fin 3) d e)) + six * x3 (ix2 (2 : Fin 3) e))) zero := by
  have hS0 : ∀ d : Fin 256, View.ld S slab0 (ix3 (0 : Fin 1) r d) = S (ix3 (0 : Fin 3) r d) := fun d => congrArg S (slab0_idx 0 r d)
  have hS1 : ∀ d : Fin 256, View.ld S slab1 (ix3 (0 : Fin 1) r d) = S (ix3 (1 : Fin 3) r d) := fun d => congrArg S (slab1_idx 0 r d)
  have hS2 : ∀ d : Fin 256, View.ld S slab2 (ix3 (0 : Fin 1) r d) = S (ix3 (2 : Fin 3) r d) := fun d => congrArg S (slab2_idx 0 r d)
  have hW : ∀ (o : Nat) (p : Fin 3) (hp : p.val = o) (inbp : ∀ a, (![o, 0, 0] : Fin 3 → Nat) a + S1x256x256.size a ≤ S3x256x256.size a) (d : Fin 256),
      View.ld x2 (Rect.unit ![o, 0, 0] S1x256x256.size inbp) (ix3 (0 : Fin 1) d e) = x2 (ix3 p d e) := fun o p hp inbp d =>
    congrArg x2 (funext fun a => Fin.ext (by
      match a with
      | ⟨0, _⟩ => show o + 1 * 0 = p.val; omega
      | ⟨1, _⟩ => show 0 + 1 * d.val = d.val; omega
      | ⟨2, _⟩ => show 0 + 1 * e.val = e.val; omega))
  have hB : ∀ (o : Nat) (p : Fin 3) (hp : p.val = o) (inbp : ∀ a, (![o, 0] : Fin 2 → Nat) a + S1x256.size a ≤ S3x256.size a),
      View.ld x3 (Rect.unit ![o, 0] S1x256.size inbp) (ix2 (0 : Fin 1) e) = x3 (ix2 p e) := fun o p hp inbp =>
    congrArg x3 (funext fun a => Fin.ext (by
      match a with
      | ⟨0, _⟩ => show o + 1 * 0 = p.val; omega
      | ⟨1, _⟩ => show 0 + 1 * e.val = e.val; omega))
  have hX : ∀ d : Fin 256, View.ld x1 (Rect.unit off S512x256.size inb) (ix2 r d) = x1 (ix2 (row q r) d) := fun d =>
    congrArg x1 (funext fun a => Fin.ext (by
      have hr := r.isLt
      match a with
      | ⟨0, _⟩ => show off 0 + 1 * r.val = (row q r).val; rw [Cert.Volterra.row_val q hq r, hoff]; show 512 * q + 1 * r.val = _; omega
      | ⟨1, _⟩ => show off 1 + 1 * d.val = d.val; rw [hoff]; show 0 + 1 * d.val = _; omega))
  unfold outBlock
  refine (Pay.final_apply _ _ _ _ _ _ _ _ r e).trans ?_
  rw [Pay.order0_apply, Pay.order1_apply, Pay.bias1_apply]
  simp only [Pay.slab_apply, Pay.slab4_apply, Pay.slab5_apply, Pay.weight_apply, hS0, hS1, hS2, hX]
  simp only [hW 0 0 rfl, hW 1 1 rfl, hW 2 2 rfl, hB 0 0 rfl, hB 1 1 rfl, hB 2 2 rfl]

end Cert.KernelIdeal.Step

end
-- ==== Proof.Blocks.lean ====
/-
  What the kernel's input windows hold at a grid point, read at an index.

  The grid is 16 × 8; point t has coordinates (t / 8, t % 8). The window on A is the block [3, 512, 1024] at block index
  (0, t / 8, t % 8), so its element (p, r, j) is A(p, 512·(t / 8) + r, 1024·(t % 8) + j): an element of a block sits at
  (block index) × (block extent) + (coordinate inside the block) on every axis. The windows on X, on the weights and on
  b are whole arrays, read at the same index at every point. The weights' array is not an argument: it is made before
  the region from W by swapping the last two axes and narrowing the element type, and the narrowing is the identity on
  the extended reals, so its element (p, d, e) is W(p, e, d).
-/
import proofs.«145899_j26173530702105_2_alg».proof.Proof.Gen.KernelIdeal.Frame
import proofs.«145899_j26173530702105_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The coordinates of grid point t. -/
theorem coords_at (t : Fin cfg0.N) : ((grid0.coords t) 0).val = t.val / 8 ∧ ((grid0.coords t) 1).val = t.val % 8 :=
  (by decide +kernel : ∀ t : Fin grid0.N, ((grid0.coords t) 0).val = t.val / 8 ∧ ((grid0.coords t) 1).val = t.val % 8) t

/-- The offset of the chunk of 1024 nodes the point reads from X. -/
theorem off1_at (t : Fin cfg0.N) : k0_off1 (grid0.coords t) = ![1024 * (t.val % 8), 0] := by
  rw [k0_off1_eq, (coords_at t).2]

/-- The offset of the block of 512 rows the point belongs to. -/
theorem off2_at (t : Fin cfg0.N) : k0_off2 (grid0.coords t) = ![512 * (t.val / 8), 0] := by
  rw [k0_off2_eq, (coords_at t).1]

/-- The window on A at point t: rows 512·(t / 8) + r, nodes 1024·(t % 8) + j, all three powers. -/
theorem blockA (c : Dev nD) (t : Fin cfg0.N) (p : Fin 3) (r : Fin 512) (j : Fin 1024) :
    (iblk m c 0 t : Vec Ideal S3x512x1024 .f32) (ix3 p r j)
      = m ((c : Thread nD τ).loc main_arg1) (ix3 p (Cert.Volterra.row (t.val / 8) r) (Cert.Volterra.node (t.val % 8) j)) := by
  have hi : win0_0.index t 0 = 0 ∧ win0_0.index t 1 = t.val / 8 ∧ win0_0.index t 2 = t.val % 8 :=
    (by decide +kernel : ∀ t : Fin grid0.N, win0_0.index t 0 = 0 ∧ win0_0.index t 1 = t.val / 8 ∧ win0_0.index t 2 = t.val % 8) t
  have hN : t.val < 128 := lt_of_lt_of_eq t.isLt (show cfg0.N = 128 from N_0)
  have hr := Cert.Volterra.row_val (t.val / 8) (by omega) r
  have hn := Cert.Volterra.node_val (t.val % 8) (by omega) j
  unfold iblk
  rw [View.read_apply]
  show V m c main_arg1 _ = m (c.tc.loc main_arg1) _
  rw [V_main_arg1]
  refine congrArg _ ?_
  funext a
  apply Fin.ext
  match a with
  | ⟨0, _⟩ => show win0_0.index t 0 * 3 + 1 * p.val = p.val; rw [hi.1]; omega
  | ⟨1, _⟩ => show win0_0.index t 1 * 512 + 1 * r.val = (Cert.Volterra.row (t.val / 8) r).val; rw [hi.2.1, hr]; omega
  | ⟨2, _⟩ => show win0_0.index t 2 * 1024 + 1 * j.val = (Cert.Volterra.node (t.val % 8) j).val; rw [hi.2.2, hn]; omega

/-- The window on X is all of X, at every point. -/
theorem blockX (c : Dev nD) (t : Fin cfg0.N) (k : Fin 8192) (d : Fin 256) :
    (iblk m c 1 t : Vec Ideal S8192x256 .f32) (ix2 k d) = m ((c : Thread nD τ).loc main_arg0) (ix2 k d) := by
  have hi : win0_1.index t 0 = 0 ∧ win0_1.index t 1 = 0 :=
    (by decide +kernel : ∀ t : Fin grid0.N, win0_1.index t 0 = 0 ∧ win0_1.index t 1 = 0) t
  unfold iblk
  rw [View.read_apply]
  show V m c main_arg0 _ = m (c.tc.loc main_arg0) _
  rw [V_main_arg0]
  refine congrArg _ ?_
  funext a
  apply Fin.ext
  match a with
  | ⟨0, _⟩ => show win0_1.index t 0 * 8192 + 1 * k.val = k.val; rw [hi.1]; omega
  | ⟨1, _⟩ => show win0_1.index t 1 * 256 + 1 * d.val = d.val; rw [hi.2]; omega

/-- The window on the weights is all of the array made from W before the region, each matrix transposed:
    its element (p, d, e) is W(p, e, d). -/
theorem blockW (c : Dev nD) (t : Fin cfg0.N) (p : Fin 3) (d e : Fin 256) :
    (iblk m c 2 t : Vec Ideal S3x256x256 .bf16) (ix3 p d e) = m ((c : Thread nD τ).loc main_arg2) (ix3 p e d) := by
  have hi : win0_2.index t 0 = 0 ∧ win0_2.index t 1 = 0 ∧ win0_2.index t 2 = 0 :=
    (by decide +kernel : ∀ t : Fin grid0.N, win0_2.index t 0 = 0 ∧ win0_2.index t 1 = 0 ∧ win0_2.index t 2 = 0) t
  have hV : (V m c main_v1 : S3x256x256.Idx → EReal)
      = (truncf (F := Ideal) .bf16 (transpose S3x256x256 [0, 2, 1] (m ((c : Thread nD τ).loc main_arg2) : FVec Ideal S3x256x256 .f32) transposes_S3x256x256_S3x256x256_0_2_1) bitsLt_bf16_f32 : FVec Ideal S3x256x256 .bf16) := by
    dsimp only [Gen.V, Gen.hostOps0]
    after_results
  have hy : (((cfg0.win 2).blk t).view.emb (ix3 p d e) : S3x256x256.Idx) = ix3 p d e := by
    funext a
    apply Fin.ext
    match a with
    | ⟨0, _⟩ => show win0_2.index t 0 * 3 + 1 * p.val = p.val; rw [hi.1]; omega
    | ⟨1, _⟩ => show win0_2.index t 1 * 256 + 1 * d.val = d.val; rw [hi.2.1]; omega
    | ⟨2, _⟩ => show win0_2.index t 2 * 256 + 1 * e.val = e.val; rw [hi.2.2]; omega
  unfold iblk
  rw [View.read_apply]
  show (V m c main_v1 : S3x256x256.Idx → EReal) _ = _
  rw [hV, truncf_apply]
  exact (congrArg _ hy).trans (transpose_ix3_021_apply _ _ p d e)

/-- The window on b is all of b, at every point. -/
theorem blockB (c : Dev nD) (t : Fin cfg0.N) (p : Fin 3) (e : Fin 256) :
    (iblk m c 3 t : Vec Ideal S3x256 .f32) (ix2 p e) = m ((c : Thread nD τ).loc main_arg3) (ix2 p e) := by
  have hi : win0_3.index t 0 = 0 ∧ win0_3.index t 1 = 0 :=
    (by decide +kernel : ∀ t : Fin grid0.N, win0_3.index t 0 = 0 ∧ win0_3.index t 1 = 0) t
  unfold iblk
  rw [View.read_apply]
  show V m c main_arg3 _ = m (c.tc.loc main_arg3) _
  rw [V_main_arg3]
  refine congrArg _ ?_
  funext a
  apply Fin.ext
  match a with
  | ⟨0, _⟩ => show win0_3.index t 0 * 3 + 1 * p.val = p.val; rw [hi.1]; omega
  | ⟨1, _⟩ => show win0_3.index t 1 * 256 + 1 * e.val = e.val; rw [hi.2]; omega

end Cert.KernelIdeal.Blocks

end
-- ==== Proof.Fold.lean ====
/-
  What the accumulator holds after each grid point.

  Point n = 8·i + k of the grid adds to the accumulator, at (p, r, d), the product of row 512·i + r of A_p, restricted
  to the 1024 nodes of chunk k, with column d of X over the same nodes. The first point of a row of the grid (k = 0)
  starts from zeros, so after point 8·i + k the accumulator holds zero plus the sum of the contributions of the points
  8·i, …, 8·i + k.
-/
import proofs.«145899_j26173530702105_2_alg».proof.Proof.Gen.KernelIdeal.Value
import proofs.«145899_j26173530702105_2_alg».proof.Proof.Step
import proofs.«145899_j26173530702105_2_alg».proof.Proof.Blocks

noncomputable section

open scoped BigOperators

namespace Cert.KernelIdeal.Fold

open Cert.KernelIdeal Cert.KernelIdeal.Gen Cert.KernelIdeal.Value Cert.KernelIdeal.Pieces
open Idealize.ShloMosaic Idealize.ShloMosaic.TcCoe Idealize.ShloMosaic.ValueIdx Idealize.SL.Sem
open Cert.Volterra (node row zero)

variable (m : (ℓ : Loc nD τ sig) → Buf (Elt Ideal) ℓ)

/-- The arrays A and X on core c, as functions on their index sets. -/
abbrev argA (c : Dev nD) : S3x8192x8192.Idx → EReal := m ((c : Thread nD τ).loc main_arg1)
abbrev argX (c : Dev nD) : S8192x256.Idx → EReal := m ((c : Thread nD τ).loc main_arg0)

/-- What grid point n adds to the accumulator at (p, r, d). -/
def contrib (c : Dev nD) (n : Nat) (p : Fin 3) (r : Fin 512) (d : Fin 256) : EReal :=
  ∑ j : Fin 1024, argA m c (ix3 p (row (n / 8) r) (node (n % 8) j)) * argX m c (ix2 (node (n % 8) j) d)

/-- The product of the A block and the chunk of X that point t stages is that point's contribution. -/
theorem blocks_contrib (c : Dev nD) (t : Fin cfg0.N) (x0 : Vec Ideal S3x512x1024 .f32) (x1 : Vec Ideal S8192x256 .f32)
    (hx0 : x0 = iblk m c 0 t) (hx1 : x1 = iblk m c 1 t) (p : Fin 3) (r : Fin 512) (d : Fin 256) :
    (∑ j : Fin 1024, x0 (ix3 p r j) * x1 (ix2 (node (t.val % 8) j) d)) = contrib m c t.val p r d := by
  subst hx0 hx1
  unfold contrib
  exact Finset.sum_congr rfl fun j _ => by rw [Blocks.blockA, Blocks.blockX]

/-- A point that is not the first of its row of the grid adds its contribution to what the point before left. -/
theorem scAt_step (c : Dev nD) (n : Nat) (hb : n < cfg0.N) (h0 : ¬n % 8 = 0) (acc : Vec Ideal S3x512x256 .f32)
    (p : Fin 3) (r : Fin 512) (d : Fin 256) :
    scAt0_0 m c n hb acc (ix3 p r d) = acc (ix3 p r d) + contrib m c n p r d := by
  unfold scAt0_0
  rw [dif_neg h0]
  by_cases h1 : n % 8 = 7
  · rw [dif_pos h1]
    refine (congrFun (Pieces.sout_C c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _)
      (iblk m c 0 ⟨n, hb⟩) (iblk m c 1 ⟨n, hb⟩) (iblk m c 2 ⟨n, hb⟩) (iblk m c 3 ⟨n, hb⟩) _ _ acc) (ix3 p r d)).trans ?_
    refine (Step.slabs_ld_apply _ _ (n % 8) (Nat.mod_lt _ (by norm_num)) (Blocks.off1_at ⟨n, hb⟩) _ _ acc p r d).trans ?_
    exact congrArg (acc (ix3 p r d) + ·) (blocks_contrib m c ⟨n, hb⟩ _ _ rfl rfl p r d)
  · rw [dif_neg h1]
    refine (congrFun (Pieces.sout_B c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _)
      (iblk m c 0 ⟨n, hb⟩) (iblk m c 1 ⟨n, hb⟩) (iblk m c 2 ⟨n, hb⟩) (iblk m c 3 ⟨n, hb⟩) _ _ acc) (ix3 p r d)).trans ?_
    refine (Step.slabs_ld_apply _ _ (n % 8) (Nat.mod_lt _ (by norm_num)) (Blocks.off1_at ⟨n, hb⟩) _ _ acc p r d).trans ?_
    exact congrArg (acc (ix3 p r d) + ·) (blocks_contrib m c ⟨n, hb⟩ _ _ rfl rfl p r d)

/-- The first point of a row of the grid leaves zero plus its contribution, whatever the accumulator held. -/
theorem scAt_reset (c : Dev nD) (n : Nat) (hb : n < cfg0.N) (h0 : n % 8 = 0) (acc : Vec Ideal S3x512x256 .f32)
    (p : Fin 3) (r : Fin 512) (d : Fin 256) :
    scAt0_0 m c n hb acc (ix3 p r d) = zero + contrib m c n p r d := by
  have h1 : ¬n % 8 = 7 := by omega
  unfold scAt0_0
  rw [dif_pos h0, dif_neg h1]
  refine (congrFun (Pieces.sout_A c (grid0.coords ⟨n, hb⟩) (ms0_0 ⟨n, hb⟩) (hs0_0 ⟨n, hb⟩) (ms0_1 ⟨n, hb⟩) (hs0_1 ⟨n, hb⟩)
    (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _)
    (iblk m c 0 ⟨n, hb⟩) (iblk m c 1 ⟨n, hb⟩) (iblk m c 2 ⟨n, hb⟩) (iblk m c 3 ⟨n, hb⟩) _ _) (ix3 p r d)).trans ?_
  refine (Step.slabs_zero_apply _ _ (n % 8) (Nat.mod_lt _ (by norm_num)) (Blocks.off1_at ⟨n, hb⟩) _ _ p r d).trans ?_
  exact congrArg (zero + ·) (blocks_contrib m c ⟨n, hb⟩ _ _ rfl rfl p r d)

/-- THE ACCUMULATOR after point t: zero plus the contributions of the points of t's row of the grid up to t. -/
theorem scratch_apply (c : Dev nD) (t : Fin cfg0.N) (p : Fin 3) (r : Fin 512) (d : Fin 256) :
    (outsAt0 m c t.val t.isLt).2 (ix3 p r d)
      = zero + ∑ s ∈ Finset.range (t.val % 8 + 1), contrib m c (8 * (t.val / 8) + s) p r d := by
  have hN : t.val < 128 := lt_of_lt_of_eq t.isLt N_0
  rw [soutsAt0_0_eq m c t]
  exact Pipeline.accAt_add_apply (ι := S3x512x256.Idx) (β := EReal) _ _ (fun _ => zero)
    (fun n y => contrib m c n (y 0) (y 1) (y 2)) (8 * (t.val / 8)) 7
    (fun h i => by
      obtain ⟨p, r, d, rfl⟩ : ∃ (p : Fin 3) (r : Fin 512) (d : Fin 256), i = ix3 p r d := ⟨i 0, i 1, i 2, eq_ix3 i⟩
      exact scAt_reset m c _ h (Nat.mul_mod_right 8 _) _ p r d)
    (fun n h acc i hlo hhi => by
      obtain ⟨p, r, d, rfl⟩ : ∃ (p : Fin 3) (r : Fin 512) (d : Fin 256), i = ix3 p r d := ⟨i 0, i 1, i 2, eq_ix3 i⟩
      exact scAt_step m c n h (by omega) acc p r d)
    (t.val % 8) (by omega) _ (ix3 p r d)

end Cert.KernelIdeal.Fold

end
-- ==== Proof.Cover.lean ====
/-
  From the blocks to the array.

  The output array [8192, 256] is written back in blocks of 512 rows: block q at the grid points t = 8·q + 7, the last
  of the eight points that share q = t / 8. Entry (r, e) of such a block sits in the array at (512·q + r, e). So if every
  writing point writes back a block whose entries are those of one function G of the array's index, then, every row
  n lying in block n / 512, the array ends as G.
-/
import proofs.«145899_j26173530702105_2_alg».proof.Proof.Gen.KernelIdeal.Value
import proofs.«145899_j26173530702105_2_alg».proof.Proof.Spec
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The block index of the output window at point t: (t / 8, 0). -/
theorem idx4 (t : Fin cfg0.N) : win0_4.index t 0 = t.val / 8 ∧ win0_4.index t 1 = 0 :=
  (by decide +kernel : ∀ t : Fin grid0.N, win0_4.index t 0 = t.val / 8 ∧ win0_4.index t 1 = 0) t

/-- Entry (r, e) of the output block at point t sits in the array at (512·(t / 8) + r, e). -/
theorem emb4 (t : Fin cfg0.N) (r : Fin 512) (e : Fin 256) :
    (((cfg0.win 4).blk t).view.emb (ix2 r e) : S8192x256.Idx) = ix2 (Cert.Volterra.row (t.val / 8) r) e := by
  have hi := idx4 t
  have hN : t.val < 128 := lt_of_lt_of_eq t.isLt (show cfg0.N = 128 from N_0)
  have hr := Cert.Volterra.row_val (t.val / 8) (by omega) r
  funext a
  apply Fin.ext
  match a with
  | ⟨0, _⟩ => show win0_4.index t 0 * 512 + 1 * r.val = (Cert.Volterra.row (t.val / 8) r).val; rw [hi.1, hr]; omega
  | ⟨1, _⟩ => show win0_4.index t 1 * 256 + 1 * e.val = e.val; rw [hi.2]; omega

/-- A block whose entries are G at the block's place in the array is the block of G there (the output's blocks
    do not overhang the array, so what is written back is the whole block). -/
theorem flushed_at (c : Dev nD) (G : Buf (Elt Ideal) ((c : Thread nD τ).loc main_v2)) (B : Fin cfg0.N → Vec Ideal S512x256 .f32)
    (hB : ∀ t : Fin cfg0.N, t.val % 8 = 7 → ∀ (r : Fin 512) (e : Fin 256), B t (ix2 r e) = G (ix2 (Cert.Volterra.row (t.val / 8) r) e))
    (t : Fin cfg0.N) (h7 : t.val % 8 = 7) :
    (cfg0.win 4).cut (grid0.coords t) (B t) = ((cfg0.win 4).blk t).view.read (Elt Ideal) G := by
  funext y
  rw [View.read_apply]
  obtain ⟨r, e, rfl⟩ : ∃ (r : Fin 512) (e : Fin 256), y = ix2 r e := ⟨y 0, y 1, eq_ix2 y⟩
  show B t (ix2 r e) = G (((cfg0.win 4).blk t).view.emb (ix2 r e))
  rw [emb4, hB t h7 r e]

/-- Every index (n, e) of the output array is in the block of the writing point 8·(n / 512) + 7. -/
theorem cover4 (i : S8192x256.Idx) :
    ∃ t : Fin cfg0.N, (cfg0.win 4).flush t = true ∧ i ∈ ((cfg0.win 4).blk t).view.set := by
  have h0 : (i 0).val < 8192 := (i 0).isLt
  have h1 : (i 1).val < 256 := (i 1).isLt
  have hN : cfg0.N = 128 := N_0
  obtain ⟨t, ht⟩ : ∃ t : Fin cfg0.N, t.val = 8 * ((i 0).val / 512) + 7 := ⟨⟨8 * ((i 0).val / 512) + 7, by rw [hN]; omega⟩, rfl⟩
  refine ⟨t, (flush0_4 t).mpr (by omega), ?_⟩
  show i ∈ ((View.whole main_v2).slice (win0_4.rect t)).set
  rw [View.set_slice_whole, Rect.mem_set_unit]
  intro a
  have hi := idx4 t
  match a with
  | ⟨0, _⟩ => show win0_4.index t 0 * 512 ≤ (i 0).val ∧ (i 0).val < win0_4.index t 0 * 512 + 512; rw [hi.1]; omega
  | ⟨1, _⟩ => show win0_4.index t 1 * 256 ≤ (i 1).val ∧ (i 1).val < win0_4.index t 1 * 256 + 256; rw [hi.2]; omega

/-- FROM THE BLOCKS TO THE ARRAY. If every writing point (t % 8 = 7) writes back a block B t whose entry (r, e) is
    G at (512·(t / 8) + r, e), the output array ends as G: the sixteen blocks of 512 rows tile the 8192 rows. -/
theorem final_of_blocks (c : Dev nD) (G : Buf (Elt Ideal) ((c : Thread nD τ).loc main_v2)) (B : Fin cfg0.N → Vec Ideal S512x256 .f32)
    (hflush : ∀ t : Fin cfg0.N, t.val % 8 = 7 → (dats m 0 c).flushed 4 t = (cfg0.win 4).cut (grid0.coords t) (B t))
    (hB : ∀ t : Fin cfg0.N, t.val % 8 = 7 → ∀ (r : Fin 512) (e : Fin 256), B t (ix2 r e) = G (ix2 (Cert.Volterra.row (t.val / 8) r) e)) :
    (dats m 0 c).arrAt 4 cfg0.N = G :=
  (dats m 0 c).arrAt_eq_of_cover 4 G
    (fun t hf => (hflush t ((flush0_4 t).mp hf)).trans (flushed_at c G B hB t ((flush0_4 t).mp hf)))
    cover4

end Cert.KernelIdeal.Cover

end
-- ==== Proof.KernelSide.lean ====
/-
  The kernel's output array is the layer of the specification.

  A last point of a row of the grid (t = 8·i + 7) computes its output block from the accumulator as that point
  leaves it, which by then holds zero plus the eight chunk contributions: the full products A_p · X on the block's
  rows. The block's entry (r, e) is the layer's formula at (512·i + r, e) with the final sum grouped order by order;
  regrouping the sum gives the specification's chain. The sixteen blocks written back tile the array.
-/
import proofs.«145899_j26173530702105_2_alg».proof.Proof.Fold
import proofs.«145899_j26173530702105_2_alg».proof.Proof.Cover

noncomputable section

open scoped BigOperators

namespace Cert.KernelIdeal.Layer

open Cert.KernelIdeal Cert.KernelIdeal.Gen Cert.KernelIdeal.Value Cert.KernelIdeal.Pieces
open Idealize.ShloMosaic Idealize.ShloMosaic.TcCoe Idealize.ShloMosaic.ValueIdx Idealize.SL.Sem
open Cert.Volterra (node row zero)

variable (m : (ℓ : Loc nD τ sig) → Buf (Elt Ideal) ℓ) (ρ : Dev nD → PrngReg)

/-- The rows of X a point's output block belongs to lie inside X, at every point. -/
theorem off2_inb (t : Fin cfg0.N) : ∀ a, k0_off2 (grid0.coords t) a + S512x256.size a ≤ S8192x256.size a := by
  have hN : t.val < 128 := lt_of_lt_of_eq t.isLt N_0
  rw [Blocks.off2_at t]
  intro a
  match a with
  | ⟨0, _⟩ => show 512 * (t.val / 8) + 512 ≤ 8192; omega
  | ⟨1, _⟩ => show 0 + 256 ≤ 256; omega

/-- The output block point t computes from the accumulator as it leaves it. -/
def block (c : Dev nD) (t : Fin cfg0.N) : Vec Ideal S512x256 .f32 :=
  outBlock (k0_off2 (grid0.coords t)) (off2_inb t) (iblk m c 1 t) (iblk m c 2 t) (iblk m c 3 t) (outsAt0 m c t.val t.isLt).2

/-- What a last point of a row of the grid leaves in the output's staging buffer is that block. -/
theorem out_eq_block (c : Dev nD) (t : Fin cfg0.N) (h1 : t.val % 8 = 7) :
    (outsAt0 m c t.val t.isLt).1 = block m c t := by
  have h0 : ¬t.val % 8 = 0 := by omega
  unfold block
  rw [outsAt0_C m c t h0 h1]
  dsimp only
  rw [Pieces.out_C, Pieces.sout_C]

/-- After a last point of a row of the grid the accumulator holds the full products A_p · X on the block's rows. -/
theorem scratch_full (c : Dev nD) (t : Fin cfg0.N) (h1 : t.val % 8 = 7) (p : Fin 3) (r : Fin 512) (d : Fin 256) :
    (outsAt0 m c t.val t.isLt).2 (ix3 p r d)
      = Cert.Volterra.prop (m ((c : Thread nD τ).loc main_arg0)) (m ((c : Thread nD τ).loc main_arg1)) p (row (t.val / 8) r) d := by
  rw [Fold.scratch_apply m c t p r d, h1]
  show Ideal.ofBits .f32 0x00000000#32 + _ = _
  rw [Ideal.ofBits_zero_f32, zero_add]
  unfold Cert.Volterra.prop
  rw [Cert.Volterra.sum_chunks]
  refine Finset.sum_congr rfl fun s hs => ?_
  have hs8 : s < 8 := Finset.mem_range.mp hs
  unfold Fold.contrib
  rw [show (8 * (t.val / 8) + s) / 8 = t.val / 8 by omega, show (8 * (t.val / 8) + s) % 8 = s by omega]

/-- The block's entry (r, e) is the layer at (512·(t / 8) + r, e). -/
theorem block_apply (c : Dev nD) (t : Fin cfg0.N) (h1 : t.val % 8 = 7) (r : Fin 512) (e : Fin 256) :
    block m c t (ix2 r e)
      = Cert.Volterra.layer (m ((c : Thread nD τ).loc main_arg0)) (m ((c : Thread nD τ).loc main_arg1))
          (m ((c : Thread nD τ).loc main_arg2)) (m ((c : Thread nD τ).loc main_arg3)) (ix2 (row (t.val / 8) r) e) := by
  have hN : t.val < 128 := lt_of_lt_of_eq t.isLt N_0
  rw [Cert.Volterra.layer_apply, ← Cert.Volterra.grouped_eq_chained]
  unfold block
  refine (Step.outBlock_apply _ _ (t.val / 8) (by omega) (Blocks.off2_at t) _ _ _ _ r e).trans ?_
  unfold Cert.Volterra.grouped Cert.Volterra.lin0 Cert.Volterra.lin1 Cert.Volterra.lin2
  simp only [Blocks.blockX, Blocks.blockW, Blocks.blockB, scratch_full m c t h1]

/-- THE KERNEL'S OUTPUT ARRAY after the run: the layer of the argument arrays. -/
theorem final4 (c : Dev nD) :
    (dats m 0 c).arrAt 4 cfg0.N
      = Cert.Volterra.layer (m ((c : Thread nD τ).loc main_arg0)) (m ((c : Thread nD τ).loc main_arg1))
          (m ((c : Thread nD τ).loc main_arg2)) (m ((c : Thread nD τ).loc main_arg3)) :=
  Cover.final_of_blocks m c _ (fun t => (outsAt0 m c t.val t.isLt).1) (fun t _ => flushed4 m c t)
    (fun t h1 r e => (congrFun (out_eq_block m c t h1) (ix2 r e)).trans (block_apply m c t h1 r e))

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v2)
        = Cert.Volterra.layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

end Cert.KernelIdeal.Layer

end
-- ==== Proof.RefSide.lean ====
/-
  The reference program computes the layer of the specification.

  Read one operation at a time, the reference forms M_p = A_p · X, the combinations S1 and S2 of the M_p, the three
  products with the transposed weights, the three bias rows (the second and third scaled by 3 and 6), adds these in
  the order ((((t_0 + b_0) + t_1) + 3·b_1) + t_2) + 6·b_2 and takes the maximum with 0. The specification's chained form
  is written in exactly that order, so each array of the program is identified with the matching expression of the
  specification at an index (n, d) or (n, e), and no rearrangement of sums is needed.
-/
import proofs.«145899_j26173530702105_2_alg».proof.Proof.Gen.ReferenceIdeal.Read
import proofs.«145899_j26173530702105_2_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

section
variable (x0 : (⟨Cert.ReferenceIdeal.S8192x256, .f32⟩ : BufTy).Contents (Elt Ideal))
  (x1 : (⟨Cert.ReferenceIdeal.S3x8192x8192, .f32⟩ : BufTy).Contents (Elt Ideal))
  (x2 : (⟨Cert.ReferenceIdeal.S3x256x256, .f32⟩ : BufTy).Contents (Elt Ideal))
  (x3 : (⟨Cert.ReferenceIdeal.S3x256, .f32⟩ : BufTy).Contents (Elt Ideal))

/-! ## The propagated features M_p = A_p · X

The batched product read at (p, n, d) is the sum over the nodes k of A(p, n, k) · X(k, d). -/

theorem v0_at (p : Fin 3) (n : Fin 8192) (d : Fin 256) :
    val_main_v0 (F := Ideal) x0 x1 (ix3 p n d) = Cert.Volterra.prop x0 x1 p n d := by
  rw [val_main_v0_apply]
  unfold Cert.Volterra.prop
  refine Finset.sum_congr rfl fun k _ => ?_
  have e1 : lidx_main_v0 (ix3 p n d) k = ix3 p n k := funext fun a => Fin.ext (by
    match a with | ⟨0, _⟩ => rfl | ⟨1, _⟩ => rfl | ⟨2, _⟩ => rfl)
  have e2 : ridx_main_v0 (ix3 p n d) k = ix2 k d := funext fun a => Fin.ext (by
    match a with | ⟨0, _⟩ => rfl | ⟨1, _⟩ => rfl)
  rw [e1, e2]

/-! Each use of M_p in the program is a slice [p : p+1] of the batched product followed by a reshape that drops
the unit axis; at (n, d) it reads the product at (p, n, d), since (256·n + d) / 256 = n and (256·n + d) % 256 = d. -/

theorem sl11 (n : Fin 8192) (d : Fin 256) :
    idx_main_v10 (idx_main_v11 (ix2 n d)) = ix3 (0 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v11_at (n : Fin 8192) (d : Fin 256) :
    val_main_v11 (F := Ideal) x0 x1 (ix2 n d) = Cert.Volterra.prop x0 x1 0 n d := by
  rw [val_main_v11_apply, val_main_v10_apply, sl11, v0_at]

theorem sl31 (n : Fin 8192) (d : Fin 256) :
    idx_main_v30 (idx_main_v31 (ix2 n d)) = ix3 (0 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v31_at (n : Fin 8192) (d : Fin 256) :
    val_main_v31 (F := Ideal) x0 x1 (ix2 n d) = Cert.Volterra.prop x0 x1 0 n d := by
  rw [val_main_v31_apply, val_main_v30_apply, sl31, v0_at]

theorem sl33 (n : Fin 8192) (d : Fin 256) :
    idx_main_v32 (idx_main_v33 (ix2 n d)) = ix3 (0 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v33_at (n : Fin 8192) (d : Fin 256) :
    val_main_v33 (F := Ideal) x0 x1 (ix2 n d) = Cert.Volterra.prop x0 x1 0 n d := by
  rw [val_main_v33_apply, val_main_v32_apply, sl33, v0_at]

theorem sl36 (n : Fin 8192) (d : Fin 256) :
    idx_main_v35 (idx_main_v36 (ix2 n d)) = ix3 (0 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v36_at (n : Fin 8192) (d : Fin 256) :
    val_main_v36 (F := Ideal) x0 x1 (ix2 n d) = Cert.Volterra.prop x0 x1 0 n d := by
  rw [val_main_v36_apply, val_main_v35_apply, sl36, v0_at]

theorem sl41 (n : Fin 8192) (d : Fin 256) :
    idx_main_v40 (idx_main_v41 (ix2 n d)) = ix3 (0 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v41_at (n : Fin 8192) (d : Fin 256) :
    val_main_v41 (F := Ideal) x0 x1 (ix2 n d) = Cert.Volterra.prop x0 x1 0 n d := by
  rw [val_main_v41_apply, val_main_v40_apply, sl41, v0_at]

theorem sl13 (n : Fin 8192) (d : Fin 256) :
    idx_main_v12 (idx_main_v13 (ix2 n d)) = ix3 (1 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v13_at (n : Fin 8192) (d : Fin 256) :
    val_main_v13 (F := Ideal) x0 x1 (ix2 n d) = Cert.Volterra.prop x0 x1 1 n d := by
  rw [val_main_v13_apply, val_main_v12_apply, sl13, v0_at]

theorem sl38 (n : Fin 8192) (d : Fin 256) :
    idx_main_v37 (idx_main_v38 (ix2 n d)) = ix3 (1 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v38_at (n : Fin 8192) (d : Fin 256) :
    val_main_v38 (F := Ideal) x0 x1 (ix2 n d) = Cert.Volterra.prop x0 x1 1 n d := by
  rw [val_main_v38_apply, val_main_v37_apply, sl38, v0_at]

theorem sl46 (n : Fin 8192) (d : Fin 256) :
    idx_main_v45 (idx_main_v46 (ix2 n d)) = ix3 (1 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v46_at (n : Fin 8192) (d : Fin 256) :
    val_main_v46 (F := Ideal) x0 x1 (ix2 n d) = Cert.Volterra.prop x0 x1 1 n d := by
  rw [val_main_v46_apply, val_main_v45_apply, sl46, v0_at]

theorem sl48 (n : Fin 8192) (d : Fin 256) :
    idx_main_v47 (idx_main_v48 (ix2 n d)) = ix3 (1 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v48_at (n : Fin 8192) (d : Fin 256) :
    val_main_v48 (F := Ideal) x0 x1 (ix2 n d) = Cert.Volterra.prop x0 x1 1 n d := by
  rw [val_main_v48_apply, val_main_v47_apply, sl48, v0_at]

theorem sl51 (n : Fin 8192) (d : Fin 256) :
    idx_main_v50 (idx_main_v51 (ix2 n d)) = ix3 (1 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v51_at (n : Fin 8192) (d : Fin 256) :
    val_main_v51 (F := Ideal) x0 x1 (ix2 n d) = Cert.Volterra.prop x0 x1 1 n d := by
  rw [val_main_v51_apply, val_main_v50_apply, sl51, v0_at]

theorem sl15 (n : Fin 8192) (d : Fin 256) :
    idx_main_v14 (idx_main_v15 (ix2 n d)) = ix3 (2 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v15_at (n : Fin 8192) (d : Fin 256) :
    val_main_v15 (F := Ideal) x0 x1 (ix2 n d) = Cert.Volterra.prop x0 x1 2 n d := by
  rw [val_main_v15_apply, val_main_v14_apply, sl15, v0_at]

theorem sl43 (n : Fin 8192) (d : Fin 256) :
    idx_main_v42 (idx_main_v43 (ix2 n d)) = ix3 (2 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v43_at (n : Fin 8192) (d : Fin 256) :
    val_main_v43 (F := Ideal) x0 x1 (ix2 n d) = Cert.Volterra.prop x0 x1 2 n d := by
  rw [val_main_v43_apply, val_main_v42_apply, sl43, v0_at]

theorem sl53 (n : Fin 8192) (d : Fin 256) :
    idx_main_v52 (idx_main_v53 (ix2 n d)) = ix3 (2 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v53_at (n : Fin 8192) (d : Fin 256) :
    val_main_v53 (F := Ideal) x0 x1 (ix2 n d) = Cert.Volterra.prop x0 x1 2 n d := by
  rw [val_main_v53_apply, val_main_v52_apply, sl53, v0_at]

theorem sl56 (n : Fin 8192) (d : Fin 256) :
    idx_main_v55 (idx_main_v56 (ix2 n d)) = ix3 (2 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v56_at (n : Fin 8192) (d : Fin 256) :
    val_main_v56 (F := Ideal) x0 x1 (ix2 n d) = Cert.Volterra.prop x0 x1 2 n d := by
  rw [val_main_v56_apply, val_main_v55_apply, sl56, v0_at]

theorem sl58 (n : Fin 8192) (d : Fin 256) :
    idx_main_v57 (idx_main_v58 (ix2 n d)) = ix3 (2 : Fin 3) n d := funext fun a => Fin.ext (by
  have hn := n.isLt
  have hd := d.isLt
  match a with
  | ⟨0, _⟩ => rfl
  | ⟨1, _⟩ => show (n.val * 256 + d.val) / 256 % 8192 = n.val; omega
  | ⟨2, _⟩ => show (n.val * 256 + d.val) % 256 = d.val; omega)

theorem v58_at (n : Fin 8192) (d : Fin 256) :
    val_main_v58 (F := Ideal) x0 x1 (ix2 n d) = Cert.Volterra.prop x0 x1 2 n d := by
  rw [val_main_v58_apply, val_main_v57_apply, sl58, v0_at]

/-! ## The first- and second-order combinations at (n, d) -/

/-- S1 = (M_0 + M_1) + M_2. -/
theorem s1_at (n : Fin 8192) (d : Fin 256) :
    val_main_v17 (F := Ideal) x0 x1 (ix2 n d)
      = Cert.Volterra.ord1 (Cert.Volterra.prop x0 x1 0 n d) (Cert.Volterra.prop x0 x1 1 n d) (Cert.Volterra.prop x0 x1 2 n d) := by
  rw [val_main_v17_apply, val_main_v16_apply, v11_at, v13_at, v15_at]
  rfl

/-- S2 = ((((M_0∘M_0 + M_0∘M_1) + M_0∘M_2) + M_1∘M_1) + M_1∘M_2) + M_2∘M_2. -/
theorem s2_at (n : Fin 8192) (d : Fin 256) :
    val_main_v64 (F := Ideal) x0 x1 (ix2 n d)
      = Cert.Volterra.ord2 (Cert.Volterra.prop x0 x1 0 n d) (Cert.Volterra.prop x0 x1 1 n d) (Cert.Volterra.prop x0 x1 2 n d) := by
  rw [val_main_v64_apply, val_main_v63_apply, val_main_v62_apply, val_main_v61_apply, val_main_v60_apply,
    val_main_v34_apply, val_main_v39_apply, val_main_v44_apply, val_main_v49_apply, val_main_v54_apply, val_main_v59_apply,
    v31_at, v33_at, v36_at, v38_at, v41_at, v43_at, v46_at, v48_at, v51_at, v53_at, v56_at, v58_at]
  rfl

/-! ## The transposed weights

W_rᵀ is a slice [r : r+1] of W, a reshape dropping the unit axis, and a transposition; at (d, e) it reads W(r, e, d). -/

theorem wi0 (k e : Fin 256) :
    idx_main_v1 (idx_main_v2 (idx_main_v3 (ix2 k e))) = ix3 (0 : Fin 3) e k := funext fun a => Fin.ext (by
  have hk := k.isLt
  have he := e.isLt
  match a with
  | ⟨0, _⟩ => rfl
  | ⟨1, _⟩ => show (e.val * 256 + k.val) / 256 % 256 = e.val; omega
  | ⟨2, _⟩ => show (e.val * 256 + k.val) % 256 = k.val; omega)

theorem w0_at (k e : Fin 256) :
    val_main_v3 (F := Ideal) x2 (ix2 k e) = x2 (ix3 (0 : Fin 3) e k) := by
  rw [val_main_v3_apply, val_main_v2_apply, val_main_v1_apply, wi0]

theorem wi1 (k e : Fin 256) :
    idx_main_v18 (idx_main_v19 (idx_main_v20 (ix2 k e))) = ix3 (1 : Fin 3) e k := funext fun a => Fin.ext (by
  have hk := k.isLt
  have he := e.isLt
  match a with
  | ⟨0, _⟩ => rfl
  | ⟨1, _⟩ => show (e.val * 256 + k.val) / 256 % 256 = e.val; omega
  | ⟨2, _⟩ => show (e.val * 256 + k.val) % 256 = k.val; omega)

theorem w1_at (k e : Fin 256) :
    val_main_v20 (F := Ideal) x2 (ix2 k e) = x2 (ix3 (1 : Fin 3) e k) := by
  rw [val_main_v20_apply, val_main_v19_apply, val_main_v18_apply, wi1]

theorem wi2 (k e : Fin 256) :
    idx_main_v65 (idx_main_v66 (idx_main_v67 (ix2 k e))) = ix3 (2 : Fin 3) e k := funext fun a => Fin.ext (by
  have hk := k.isLt
  have he := e.isLt
  match a with
  | ⟨0, _⟩ => rfl
  | ⟨1, _⟩ => show (e.val * 256 + k.val) / 256 % 256 = e.val; omega
  | ⟨2, _⟩ => show (e.val * 256 + k.val) % 256 = k.val; omega)

theorem w2_at (k e : Fin 256) :
    val_main_v67 (F := Ideal) x2 (ix2 k e) = x2 (ix3 (2 : Fin 3) e k) := by
  rw [val_main_v67_apply, val_main_v66_apply, val_main_v65_apply, wi2]

/-! ## The three linear terms at (n, e) -/

theorem lin0_at (n : Fin 8192) (e : Fin 256) :
    val_main_v4 (F := Ideal) x0 x2 (ix2 n e) = Cert.Volterra.lin0 x0 x2 n e := by
  rw [val_main_v4_apply]
  unfold Cert.Volterra.lin0
  refine Finset.sum_congr rfl fun k _ => ?_
  have e1 : lidx_main_v4 (ix2 n e) k = ix2 n k := funext fun a => Fin.ext (by
    match a with | ⟨0, _⟩ => rfl | ⟨1, _⟩ => rfl)
  have e2 : ridx_main_v4 (ix2 n e) k = ix2 k e := funext fun a => Fin.ext (by
    match a with | ⟨0, _⟩ => rfl | ⟨1, _⟩ => rfl)
  rw [e1, e2, w0_at]

theorem lin1_at (n : Fin 8192) (e : Fin 256) :
    val_main_v21 (F := Ideal) x0 x1 x2 (ix2 n e) = Cert.Volterra.lin1 x2 (fun p d => Cert.Volterra.prop x0 x1 p n d) e := by
  rw [val_main_v21_apply]
  unfold Cert.Volterra.lin1
  refine Finset.sum_congr rfl fun k _ => ?_
  have e1 : lidx_main_v21 (ix2 n e) k = ix2 n k := funext fun a => Fin.ext (by
    match a with | ⟨0, _⟩ => rfl | ⟨1, _⟩ => rfl)
  have e2 : ridx_main_v21 (ix2 n e) k = ix2 k e := funext fun a => Fin.ext (by
    match a with | ⟨0, _⟩ => rfl | ⟨1, _⟩ => rfl)
  rw [e1, e2, s1_at, w1_at]

theorem lin2_at (n : Fin 8192) (e : Fin 256) :
    val_main_v68 (F := Ideal) x0 x1 x2 (ix2 n e) = Cert.Volterra.lin2 x2 (fun p d => Cert.Volterra.prop x0 x1 p n d) e := by
  rw [val_main_v68_apply]
  unfold Cert.Volterra.lin2
  refine Finset.sum_congr rfl fun k _ => ?_
  have e1 : lidx_main_v68 (ix2 n e) k = ix2 n k := funext fun a => Fin.ext (by
    match a with | ⟨0, _⟩ => rfl | ⟨1, _⟩ => rfl)
  have e2 : ridx_main_v68 (ix2 n e) k = ix2 k e := funext fun a => Fin.ext (by
    match a with | ⟨0, _⟩ => rfl | ⟨1, _⟩ => rfl)
  rw [e1, e2, s2_at, w2_at]

/-! ## The bias rows at (n, e)

Row r of b is a slice [r : r+1], a reshape to a vector, (for r = 1, 2) a product with the literal 3 or 6, and two
broadcasts, to [1, 256] and then along the nodes; at (n, e) it reads b(r, e). -/

theorem bi0 (n : Fin 8192) (e : Fin 256) :
    idx_main_v5 (idx_main_v6 (idx_main_v7 (idx_main_v8 (ix2 n e)))) = ix2 (0 : Fin 3) e := funext fun a => Fin.ext (by
  have he := e.isLt
  match a with
  | ⟨0, _⟩ => rfl
  | ⟨1, _⟩ => show e.val % 256 = e.val; omega)

theorem b0_at (n : Fin 8192) (e : Fin 256) :
    val_main_v8 (F := Ideal) x3 (ix2 n e) = x3 (ix2 (0 : Fin 3) e) := by
  rw [val_main_v8_apply, val_main_v7_apply, val_main_v6_apply, val_main_v5_apply, bi0]

theorem bi1 (n : Fin 8192) (e : Fin 256) :
    idx_main_v23 (idx_main_v24 (idx_main_v27 (idx_main_v28 (ix2 n e)))) = ix2 (1 : Fin 3) e := funext fun a => Fin.ext (by
  have he := e.isLt
  match a with
  | ⟨0, _⟩ => rfl
  | ⟨1, _⟩ => show e.val % 256 = e.val; omega)

theorem b1_at (n : Fin 8192) (e : Fin 256) :
    val_main_v28 (F := Ideal) x3 (ix2 n e) = Cert.Volterra.three * x3 (ix2 (1 : Fin 3) e) := by
  rw [val_main_v28_apply, val_main_v27_apply, val_main_v26_apply, val_main_v25_apply, val_main_cst_apply,
    val_main_v24_apply, val_main_v23_apply, bi1]
  rfl

theorem bi2 (n : Fin 8192) (e : Fin 256) :
    idx_main_v70 (idx_main_v71 (idx_main_v74 (idx_main_v75 (ix2 n e)))) = ix2 (2 : Fin 3) e := funext fun a => Fin.ext (by
  have he := e.isLt
  match a with
  | ⟨0, _⟩ => rfl
  | ⟨1, _⟩ => show e.val % 256 = e.val; omega)

theorem b2_at (n : Fin 8192) (e : Fin 256) :
    val_main_v75 (F := Ideal) x3 (ix2 n e) = Cert.Volterra.six * x3 (ix2 (2 : Fin 3) e) := by
  rw [val_main_v75_apply, val_main_v74_apply, val_main_v73_apply, val_main_v72_apply, val_main_cst_0_apply,
    val_main_v71_apply, val_main_v70_apply, bi2]
  rfl

/-! ## The result at (n, e): the chain of five sums, then the maximum with 0 -/

theorem result_at (n : Fin 8192) (e : Fin 256) :
    val_main_v77 (F := Ideal) x0 x1 x2 x3 (ix2 n e) = Cert.Volterra.layer x0 x1 x2 x3 (ix2 n e) := by
  rw [Cert.Volterra.layer_apply]
  unfold Cert.Volterra.chained
  rw [val_main_v77_apply, val_main_v76_apply, val_main_v69_apply, val_main_v29_apply, val_main_v22_apply,
    val_main_v9_apply, val_main_call0_v0_apply, val_main_call0_cst_apply,
    lin0_at, b0_at, lin1_at, b1_at, lin2_at, b2_at]
  rfl

end

/-- The reference program's result is the layer of the specification, for all inputs. -/
theorem result_eq (x0 : (⟨Cert.ReferenceIdeal.S8192x256, .f32⟩ : BufTy).Contents (Elt Ideal)) (x1 : (⟨Cert.ReferenceIdeal.S3x8192x8192, .f32⟩ : BufTy).Contents (Elt Ideal)) (x2 : (⟨Cert.ReferenceIdeal.S3x256x256, .f32⟩ : BufTy).Contents (Elt Ideal)) (x3 : (⟨Cert.ReferenceIdeal.S3x256, .f32⟩ : BufTy).Contents (Elt Ideal)) :
    Cert.ReferenceIdeal.Read.val_main_v77 (F := Ideal) x0 x1 x2 x3 = Cert.Volterra.layer x0 x1 x2 x3 := by
  funext i
  obtain ⟨n, e, rfl⟩ : ∃ (n : Fin 8192) (e : Fin 256), i = ix2 n e := ⟨i 0, i 1, eq_ix2 i⟩
  exact result_at x0 x1 x2 x3 n e

end Cert.ReferenceIdeal.RefValue

end
-- ==== Proof.lean ====
/-
  The certificate of a Volterra graph-convolution layer: a Pallas kernel that streams the three adjacency powers
  A_p block by block, accumulates M_p = A_p · X over eight chunks of 1024 nodes per block of 512 rows, and on the last
  chunk forms

      relu ( X·W_0ᵀ + b_0  +  (M_0 + M_1 + M_2)·W_1ᵀ + 3·b_1  +  (Σ_{p ≤ q} M_p ∘ M_q)·W_2ᵀ + 6·b_2 ),

  against the plain jnp program for the same formula. On the extended reals (floats exact, a change of format the
  identity) the two differ only in how sums are arranged: the kernel splits the sum over the 8192 nodes into eight
  chunks accumulated from zero, and groups the final sum order by order where the reference adds term after term.
  Addition on the extended reals is commutative and associative at the infinities too, so the two results agree for
  every input; the precondition is not used. Both programs' runs are read back as one function of the arguments
  (`Cert.Volterra.layer`), the kernel's through the generated frame run and its carried accumulator, the reference's
  through its generated run. The idealization rewrote nothing, so `preserves` is trivial.
-/
import proofs.«145899_j26173530702105_2_alg».proof.Defs
import proofs.«145899_j26173530702105_2_alg».proof.Proof.Gen.Kernel
import proofs.«145899_j26173530702105_2_alg».proof.Proof.Gen.Kernel.Skeleton
import proofs.«145899_j26173530702105_2_alg».proof.Proof.Gen.Kernel.Launch
import proofs.«145899_j26173530702105_2_alg».proof.Proof.Gen.Kernel.Points
import proofs.«145899_j26173530702105_2_alg».proof.Proof.Gen.Kernel.Frame
import proofs.«145899_j26173530702105_2_alg».proof.Proof.Gen.KernelIdeal
import proofs.«145899_j26173530702105_2_alg».proof.Proof.Gen.KernelIdeal.Skeleton
import proofs.«145899_j26173530702105_2_alg».proof.Proof.Gen.KernelIdeal.Launch
import proofs.«145899_j26173530702105_2_alg».proof.Proof.Gen.KernelIdeal.Points
import proofs.«145899_j26173530702105_2_alg».proof.Proof.Gen.KernelIdeal.Frame
import proofs.«145899_j26173530702105_2_alg».proof.Proof.Gen.ReferenceIdeal
import proofs.«145899_j26173530702105_2_alg».proof.Proof.Gen.Pre_finite_inputs
import proofs.«145899_j26173530702105_2_alg».proof.Proof.Gen.KernelIdeal.Value
import proofs.«145899_j26173530702105_2_alg».proof.Proof.Gen.ReferenceIdeal.Run
import proofs.«145899_j26173530702105_2_alg».proof.Proof.Gen.ReferenceIdeal.Read
import proofs.«145899_j26173530702105_2_alg».proof.Proof.KernelSide
import proofs.«145899_j26173530702105_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of the (agreeing) argument arrays in their result arrays. -/
theorem algebraic : Cert.algebraic_KernelIdeal_ReferenceIdeal := by
  intro m ρ m' ρ' _ hagree
  refine ⟨fun c => Cert.Volterra.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, Cert.ReferenceIdeal.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
